-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x768 : Shape := ⟨2, ![100000, 768]⟩
abbrev S100000x128 : Shape := ⟨2, ![100000, 128]⟩
abbrev S768x128 : Shape := ⟨2, ![768, 128]⟩
abbrev S128 : Shape := ⟨1, ![128]⟩
abbrev S256x128 : Shape := ⟨2, ![256, 128]⟩
abbrev S128x128 : Shape := ⟨2, ![128, 128]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S2x1600000 32) (main_arg1 : FVec F S100000x768 .f32) (main_arg2 : FVec F S100000x128 .f32) (main_arg3 : FVec F S768x128 .f32) (main_arg4 : FVec F S128 .f32) (main_arg5 : FVec F S128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S100000x768 .f32 := Host.absf main_arg1
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S768x128 .f32 := Host.absf main_arg3
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S2x1600000 : Shape := ⟨2, ![2, 1600000]⟩
abbrev S100000x768 : Shape := ⟨2, ![100000, 768]⟩
abbrev S100000x128 : Shape := ⟨2, ![100000, 128]⟩
abbrev S768x128 : Shape := ⟨2, ![768, 128]⟩
abbrev S128 : Shape := ⟨1, ![128]⟩
abbrev S256x128 : Shape := ⟨2, ![256, 128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S2000x768 : Shape := ⟨2, ![2000, 768]⟩
abbrev S2000x128 : Shape := ⟨2, ![2000, 128]⟩
abbrev S2000 : Shape := ⟨1, ![2000]⟩
abbrev S2000x1 : Shape := ⟨2, ![2000, 1]⟩
abbrev S5000x128 : Shape := ⟨2, ![5000, 128]⟩
abbrev S1700000x128 : Shape := ⟨2, ![1700000, 128]⟩

abbrev nBuf : Space → Nat
  | .hbm => 118
  | .vmem => 39
  | .smem => 0
  | _ => 0

abbrev bufTy : (tb : Table) → Fin (tcTables nBuf tb) → BufTy
  | .hbm, ⟨0, _⟩ => ⟨S2x1600000, .i32⟩
  | .hbm, ⟨1, _⟩ => ⟨S100000x768, .f32⟩
  | .hbm, ⟨2, _⟩ => ⟨S100000x128, .f32⟩
  | .hbm, ⟨3, _⟩ => ⟨S768x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S100000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S_, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x128, .f32⟩
  | .hbm, ⟨109, _⟩ => ⟨S1700000x1, .f32⟩
  | .hbm, ⟨110, _⟩ => ⟨S1700000x128, .f32⟩
  | .hbm, ⟨111, _⟩ => ⟨S1700000x128, .f32⟩
  | .hbm, ⟨112, _⟩ => ⟨S_, .f32⟩
  | .hbm, ⟨113, _⟩ => ⟨S100000x128, .f32⟩
  | .hbm, ⟨114, _⟩ => ⟨S1700000x1, .i32⟩
  | .hbm, ⟨115, _⟩ => ⟨S100000x128, .f32⟩
  | .hbm, ⟨116, _⟩ => ⟨S1x128, .f32⟩
  | .hbm, ⟨117, _⟩ => ⟨S100000x128, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x768_S768x128_S2000x128_1_0_0_1_n_n_wf : DotDims.WF S2000x768 S768x128 S2000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg1) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2x1600000 : Shape := ⟨2, ![2, 1600000]⟩
abbrev S100000x768 : Shape := ⟨2, ![100000, 768]⟩
abbrev S100000x128 : Shape := ⟨2, ![100000, 128]⟩
abbrev S768x128 : Shape := ⟨2, ![768, 128]⟩
abbrev S128 : Shape := ⟨1, ![128]⟩
abbrev S256x128 : Shape := ⟨2, ![256, 128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x1 : Shape := ⟨2, ![100000, 1]⟩
abbrev S100000x256 : Shape := ⟨2, ![100000, 256]⟩
abbrev S1700000x128 : Shape := ⟨2, ![1700000, 128]⟩

abbrev nBuf : Space → Nat
  | .hbm => 162
  | .vmem => 0
  | .smem => 0
  | _ => 0

abbrev hbmTy0_0 (i : Nat) : BufTy := match i % 128 with
  | 0 => ⟨S2x1600000, .i32⟩
  | 1 => ⟨S100000x768, .f32⟩
  | 2 => ⟨S100000x128, .f32⟩
  | 3 => ⟨S768x128, .f32⟩
  | 4 => ⟨S128, .f32⟩
  | 5 => ⟨S128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x128, .f32⟩
  | 66 => ⟨S100000x128, .f32⟩
  | 67 => ⟨S100000x128, .f32⟩
  | 68 => ⟨S_, .f32⟩
  | 69 => ⟨S100000, .f32⟩
  | 70 => ⟨S100000x1, .f32⟩
  | 71 => ⟨S_, .f32⟩
  | 72 => ⟨S100000x1, .f32⟩
  | 73 => ⟨S100000x1, .f32⟩
  | 74 => ⟨S100000x128, .f32⟩
  | 75 => ⟨S100000x128, .f32⟩
  | 76 => ⟨S_, .f32⟩
  | 77 => ⟨S100000x1, .f32⟩
  | 78 => ⟨S100000x1, .f32⟩
  | 79 => ⟨S100000x1, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x256, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S2x1600000, .i32⟩

abbrev hbmTy0_1 (i : Nat) : BufTy := match i % 128 with
  | 0 => ⟨S1700000x128, .f32⟩
  | 1 => ⟨S1700000x1, .f32⟩
  | 2 => ⟨S1700000x128, .f32⟩
  | 3 => ⟨S1700000x128, .f32⟩
  | 4 => ⟨S_, .f32⟩
  | 5 => ⟨S100000x128, .f32⟩
  | 6 => ⟨S1700000x1, .i32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x128, .f32⟩
  | 24 => ⟨S1700000x1, .f32⟩
  | 25 => ⟨S1700000x128, .f32⟩
  | 26 => ⟨S1700000x128, .f32⟩
  | 27 => ⟨S_, .f32⟩
  | 28 => ⟨S100000x128, .f32⟩
  | 29 => ⟨S1700000x1, .i32⟩
  | 30 => ⟨S100000x128, .f32⟩
  | 31 => ⟨S1x128, .f32⟩
  | 32 => ⟨S100000x128, .f32⟩
  | 33 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_c_14 : Ref sig .tc := ⟨.hbm, 120, rfl⟩
abbrev main_v83 : Ref sig .tc := ⟨.hbm, 121, rfl⟩
abbrev main_v84 : Ref sig .tc := ⟨.hbm, 122, rfl⟩
abbrev main_c_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call3_cst : Ref sig .tc := ⟨.hbm, 139, rfl⟩
abbrev main_call3_v0 : Ref sig .tc := ⟨.hbm, 140, rfl⟩
abbrev main_v99 : Ref sig .tc := ⟨.hbm, 141, rfl⟩
abbrev main_v100 : Ref sig .tc := ⟨.hbm, 142, rfl⟩
abbrev main_c_17 : Ref sig .tc := ⟨.hbm, 143, rfl⟩
abbrev main_v101 : Ref sig .tc := ⟨.hbm, 144, rfl⟩
abbrev main_v102 : Ref sig .tc := ⟨.hbm, 145, rfl⟩
abbrev main_c_18 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_19 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1700000x1_S1700000x128_0_1 : S1700000x1.BroadcastsInDim S1700000x128 (![0, 1] : Fin 2 → Fin S1700000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x768_S768x128_S100000x128_1_0_0_1_n_n_wf : DotDims.WF S100000x768 S768x128 S100000x128 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel's run with its result named.  @main is six kernel regions among stretches of host operations; the
  contents of every unscoped buffer at the return are the last stage `Gen.W13` of the fold through those segments
  (a host stretch applies its operations, a region replaces its arrays by what its write-backs leave).  The launch
  over the segments is the one the frame uses; here the final state is read at the result buffer as well as at the
  arguments: the result ends at `Gen.W13 m ρ c main_v83`, the arguments as launched.
-/
import proofs.«167491_j8246337208594_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's last
    stage and every argument array as launched. -/
theorem run_result : θ_run defs (onTc (τ := τ) (main (F := F))) ⟨m, fun _ => 0, ρ⟩ (fun r => ∀ c : Dev nD,
      r.2.mem ((c.tc : Thread nD τ).loc main_v83) = W13 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v83 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.RunValue

end
-- ==== Proof.Spec.lean ====
/-
  The dense stages of the graph network, each as ONE function of whole arrays, index by index, on the extended
  reals.  A node feature matrix is an array over [100000, 128]; a bias, a LayerNorm gain and the two halves of the
  projection weight enter as functions of their coordinates, so that neither side's layout of them (a vector [128],
  a row [1, 128], a slice of [256, 128]) is fixed here.

  * `enc`   : relu (LayerNorm (x·w + b) · g + lb), the mean and the variance of a row taken over its 128 columns,
               the variance shifted by the f32 word nearest 1e-5 before the reciprocal square root;
  * `proj`  : emb·wa + feat·wb + b  — the product of the row-wise concatenation [emb | feat] with the stacked
               weight [wa ; wb], written as two products;
  * `mm`    : x·w;
  * `actmm` : relu (s + b)·w;
  * `bias`  : s + b.
  Float literals stay the words the programs print; none is ever evaluated except the zero word.
-/
import Idealize.ShloMosaic.PureOps.Ideal
import Idealize.ShloMosaic.Lib.ValueIdx

noncomputable section

namespace Cert.Gcn

open Idealize.ShloMosaic Idealize.ShloMosaic.ValueIdx
open scoped BigOperators

/-- Node features: [100000, 128]. -/
abbrev SNH : Shape := ⟨2, ![100000, 128]⟩
/-- External features: [100000, 768]. -/
abbrev SNX : Shape := ⟨2, ![100000, 768]⟩
/-- The encoder's weight: [768, 128]. -/
abbrev SXH : Shape := ⟨2, ![768, 128]⟩
/-- A square layer weight: [128, 128]. -/
abbrev SHH : Shape := ⟨2, ![128, 128]⟩

/-- The zero word. -/
abbrev zero32 : EReal := Ideal.ofBits .f32 0x00000000#32
/-- The word of 128.0, the row length the mean divides by. -/
abbrev c128 : EReal := Ideal.ofBits .f32 0x43000000#32
/-- The f32 word nearest 1e-5 that LayerNorm adds to the variance. -/
abbrev eps32 : EReal := Ideal.ofBits .f32 0x3727C5AC#32

/-- Row `r` of x·w + b at column `j`: the sum over the 768 external features. -/
def lin (x : FVec Ideal SNX .f32) (w : FVec Ideal SXH .f32) (b : Fin 128 → EReal) (r : Fin 100000) (j : Fin 128) : EReal :=
  (∑ k : Fin 768, x (ix2 r k) * w (ix2 k j)) + b j

/-- The mean of a row of 128 entries: their sum divided by the word of 128. -/
def rowMean (y : Fin 128 → EReal) : EReal := Ideal.div (∑ j : Fin 128, y j) c128

/-- The encoder: linear map, LayerNorm over each row, gain and shift, then relu. -/
def enc (x : FVec Ideal SNX .f32) (w : FVec Ideal SXH .f32) (b g lb : Fin 128 → EReal) : FVec Ideal SNH .f32 := fun i =>
  max ((lin x w b (i 0) (i 1) - rowMean (lin x w b (i 0)))
        * Ideal.rsqrt (rowMean (fun j => (lin x w b (i 0) j - rowMean (lin x w b (i 0))) * (lin x w b (i 0) j - rowMean (lin x w b (i 0)))) + eps32)
        * g (i 1) + lb (i 1)) zero32

/-- The fusion projection, the concatenated product written as two. -/
def proj (emb feat : FVec Ideal SNH .f32) (wa wb : Fin 128 → Fin 128 → EReal) (b : Fin 128 → EReal) : FVec Ideal SNH .f32 := fun i =>
  ((∑ k : Fin 128, emb (ix2 (i 0) k) * wa k (i 1)) + (∑ k : Fin 128, feat (ix2 (i 0) k) * wb k (i 1))) + b (i 1)

/-- A plain product with a square weight. -/
def mm (x : FVec Ideal SNH .f32) (w : FVec Ideal SHH .f32) : FVec Ideal SNH .f32 := fun i =>
  ∑ k : Fin 128, x (ix2 (i 0) k) * w (ix2 k (i 1))

/-- Bias, relu, then the product with the next layer's weight. -/
def actmm (s : FVec Ideal SNH .f32) (b : Fin 128 → EReal) (w : FVec Ideal SHH .f32) : FVec Ideal SNH .f32 := fun i =>
  ∑ k : Fin 128, max (s (ix2 (i 0) k) + b k) zero32 * w (ix2 k (i 1))

/-- The last layer's bias. -/
def bias (s : FVec Ideal SNH .f32) (b : Fin 128 → EReal) : FVec Ideal SNH .f32 := fun i => s i + b (i 1)

end Cert.Gcn

end
-- ==== Proof.KFold.lean ====
/-
  The fold of buffer contents through @main's segments, read back at the buffers a later segment consumes: an
  argument array, the two node lists of the edges and the edge weights are each written at most once (an argument
  never), so at the stage where a region or a host stretch reads one it still holds what it held after its one
  write.  A host stretch keeps a buffer none of its operations writes; a region keeps every buffer that is not one
  of its windows' arrays.
-/
import proofs.«167491_j8246337208594_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch keeps a buffer that none of its operations writes: the stretch's list is opened, each
    operation's written reference compared with the buffer's. -/
macro "keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Argument 1 is written by nothing before stage 3 of the fold: it holds its launch contents there. -/
theorem arg1_at3 (c : Dev nD) : W3 m ρ c (Proc.devRef .tc main_arg1) = m ((c : Thread nD τ).loc main_arg1) :=
  calc W3 m ρ c (Proc.devRef .tc main_arg1)
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c : Thread nD τ).loc main_arg1) := rfl

/-- Argument 3 is written by nothing before stage 3 of the fold: it holds its launch contents there. -/
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

/-- Argument 4 is written by nothing before stage 2 of the fold: it holds its launch contents there. -/
theorem arg4_at2 (c : Dev nD) : W2 m ρ c (Proc.devRef .tc main_arg4) = m ((c : Thread nD τ).loc main_arg4) :=
  calc W2 m ρ c (Proc.devRef .tc main_arg4)
    _ = W1 m ρ c (Proc.devRef .tc main_arg4) := by keeps hostOps0_1
    _ = W0 m ρ c (Proc.devRef .tc main_arg4) := by keeps hostOps0
    _ = m ((c : Thread nD τ).loc main_arg4) := rfl

/-- Argument 5 is written by nothing before stage 2 of the fold: it holds its launch contents there. -/
theorem arg5_at2 (c : Dev nD) : W2 m ρ c (Proc.devRef .tc main_arg5) = m ((c : Thread nD τ).loc main_arg5) :=
  calc W2 m ρ c (Proc.devRef .tc main_arg5)
    _ = W1 m ρ c (Proc.devRef .tc main_arg5) := by keeps hostOps0_1
    _ = W0 m ρ c (Proc.devRef .tc main_arg5) := by keeps hostOps0
    _ = m ((c : Thread nD τ).loc main_arg5) := rfl

/-- Argument 6 is written by nothing before stage 2 of the fold: it holds its launch contents there. -/
theorem arg6_at2 (c : Dev nD) : W2 m ρ c (Proc.devRef .tc main_arg6) = m ((c : Thread nD τ).loc main_arg6) :=
  calc W2 m ρ c (Proc.devRef .tc main_arg6)
    _ = W1 m ρ c (Proc.devRef .tc main_arg6) := by keeps hostOps0_1
    _ = W0 m ρ c (Proc.devRef .tc main_arg6) := by keeps hostOps0
    _ = m ((c : Thread nD τ).loc main_arg6) := rfl

/-- Argument 2 is written by nothing before stage 4 of the fold: it holds its launch contents there. -/
theorem arg2_at4 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

/-- Argument 7 is written by nothing before stage 4 of the fold: it holds its launch contents there. -/
theorem arg7_at4 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

/-- Argument 8 is written by nothing before stage 4 of the fold: it holds its launch contents there. -/
theorem arg8_at4 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c : Thread nD τ).loc main_arg8) := rfl

/-- Argument 9 is written by nothing before stage 6 of the fold: it holds its launch contents there. -/
theorem arg9_at6 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by keeps hostOps1
    _ = W3 m ρ c (Proc.devRef .tc main_arg9) := W4_of_ne m ρ c main_arg9 (by decide)
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

/-- Argument 10 is written by nothing before stage 7 of the fold: it holds its launch contents there. -/
theorem arg10_at7 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by keeps hostOps1
    _ = W3 m ρ c (Proc.devRef .tc main_arg10) := W4_of_ne m ρ c main_arg10 (by decide)
    _ = W2 m ρ c (Proc.devRef .tc main_arg10) := by keeps hostOps0_2
    _ = W1 m ρ c (Proc.devRef .tc main_arg10) := by keeps hostOps0_1
    _ = W0 m ρ c (Proc.devRef .tc main_arg10) := by keeps hostOps0
    _ = m ((c : Thread nD τ).loc main_arg10) := rfl

/-- Argument 11 is written by nothing before stage 7 of the fold: it holds its launch contents there. -/
theorem arg11_at7 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by keeps hostOps1
    _ = W3 m ρ c (Proc.devRef .tc main_arg11) := W4_of_ne m ρ c main_arg11 (by decide)
    _ = W2 m ρ c (Proc.devRef .tc main_arg11) := by keeps hostOps0_2
    _ = W1 m ρ c (Proc.devRef .tc main_arg11) := by keeps hostOps0_1
    _ = W0 m ρ c (Proc.devRef .tc main_arg11) := by keeps hostOps0
    _ = m ((c : Thread nD τ).loc main_arg11) := rfl

/-- Argument 12 is written by nothing before stage 9 of the fold: it holds its launch contents there. -/
theorem arg12_at9 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := by keeps hostOps3
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by keeps hostOps1
    _ = W3 m ρ c (Proc.devRef .tc main_arg12) := W4_of_ne m ρ c main_arg12 (by decide)
    _ = W2 m ρ c (Proc.devRef .tc main_arg12) := by keeps hostOps0_2
    _ = W1 m ρ c (Proc.devRef .tc main_arg12) := by keeps hostOps0_1
    _ = W0 m ρ c (Proc.devRef .tc main_arg12) := by keeps hostOps0
    _ = m ((c : Thread nD τ).loc main_arg12) := rfl

/-- Argument 13 is written by nothing before stage 9 of the fold: it holds its launch contents there. -/
theorem arg13_at9 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := by keeps hostOps3
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by keeps hostOps1
    _ = W3 m ρ c (Proc.devRef .tc main_arg13) := W4_of_ne m ρ c main_arg13 (by decide)
    _ = W2 m ρ c (Proc.devRef .tc main_arg13) := by keeps hostOps0_2
    _ = W1 m ρ c (Proc.devRef .tc main_arg13) := by keeps hostOps0_1
    _ = W0 m ρ c (Proc.devRef .tc main_arg13) := by keeps hostOps0
    _ = m ((c : Thread nD τ).loc main_arg13) := rfl

/-- Argument 14 is written by nothing before stage 11 of the fold: it holds its launch contents there. -/
theorem arg14_at11 (c : Dev nD) : W11 m ρ c (Proc.devRef .tc main_arg14) = m ((c : Thread nD τ).loc main_arg14) :=
  calc W11 m ρ c (Proc.devRef .tc main_arg14)
    _ = W10 m ρ c (Proc.devRef .tc main_arg14) := W11_of_ne m ρ c main_arg14 (by decide)
    _ = W9 m ρ c (Proc.devRef .tc main_arg14) := by keeps hostOps4
    _ = W8 m ρ c (Proc.devRef .tc main_arg14) := W9_of_ne m ρ c main_arg14 (by decide)
    _ = W7 m ρ c (Proc.devRef .tc main_arg14) := by keeps hostOps3
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := by keeps hostOps1
    _ = W3 m ρ c (Proc.devRef .tc main_arg14) := W4_of_ne m ρ c main_arg14 (by decide)
    _ = W2 m ρ c (Proc.devRef .tc main_arg14) := by keeps hostOps0_2
    _ = W1 m ρ c (Proc.devRef .tc main_arg14) := by keeps hostOps0_1
    _ = W0 m ρ c (Proc.devRef .tc main_arg14) := by keeps hostOps0
    _ = m ((c : Thread nD τ).loc main_arg14) := rfl

/-- The source-node list (edges, then one self loop per node) is written once, in the first stretch, and kept to stage 2. -/
theorem src_at2 (c : Dev nD) : W2 m ρ c (Proc.devRef .tc main_v3) = W1 m ρ c (Proc.devRef .tc main_v3) :=
  calc W2 m ρ c (Proc.devRef .tc main_v3)
    _ = W1 m ρ c (Proc.devRef .tc main_v3) := by keeps hostOps0_1

/-- The target-node list is written once, in the first stretch, and kept to stage 2. -/
theorem dst_at2 (c : Dev nD) : W2 m ρ c (Proc.devRef .tc main_v6) = W1 m ρ c (Proc.devRef .tc main_v6) :=
  calc W2 m ρ c (Proc.devRef .tc main_v6)
    _ = W1 m ρ c (Proc.devRef .tc main_v6) := by keeps hostOps0_1

/-- The source-node list (edges, then one self loop per node) is written once, in the first stretch, and kept to stage 7. -/
theorem src_at7 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)
    _ = W2 m ρ c (Proc.devRef .tc main_v3) := by keeps hostOps0_2
    _ = W1 m ρ c (Proc.devRef .tc main_v3) := by keeps hostOps0_1

/-- The target-node list is written once, in the first stretch, and kept to stage 7. -/
theorem dst_at7 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps hostOps1
    _ = W3 m ρ c (Proc.devRef .tc main_v6) := W4_of_ne m ρ c main_v6 (by decide)
    _ = W2 m ρ c (Proc.devRef .tc main_v6) := by keeps hostOps0_2
    _ = W1 m ρ c (Proc.devRef .tc main_v6) := by keeps hostOps0_1

/-- The source-node list (edges, then one self loop per node) is written once, in the first stretch, and kept to stage 9. -/
theorem src_at9 (c : Dev nD) : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := by keeps hostOps3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)
    _ = W2 m ρ c (Proc.devRef .tc main_v3) := by keeps hostOps0_2
    _ = W1 m ρ c (Proc.devRef .tc main_v3) := by keeps hostOps0_1

/-- The target-node list is written once, in the first stretch, and kept to stage 9. -/
theorem dst_at9 (c : Dev nD) : W9 m ρ c (Proc.devRef .tc main_v6) = W1 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := by keeps hostOps3
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps hostOps1
    _ = W3 m ρ c (Proc.devRef .tc main_v6) := W4_of_ne m ρ c main_v6 (by decide)
    _ = W2 m ρ c (Proc.devRef .tc main_v6) := by keeps hostOps0_2
    _ = W1 m ρ c (Proc.devRef .tc main_v6) := by keeps hostOps0_1

/-- The source-node list (edges, then one self loop per node) is written once, in the first stretch, and kept to stage 11. -/
theorem src_at11 (c : Dev nD) : W11 m ρ c (Proc.devRef .tc main_v3) = W1 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := by keeps hostOps4
    _ = W8 m ρ c (Proc.devRef .tc main_v3) := W9_of_ne m ρ c main_v3 (by decide)
    _ = W7 m ρ c (Proc.devRef .tc main_v3) := by keeps hostOps3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)
    _ = W2 m ρ c (Proc.devRef .tc main_v3) := by keeps hostOps0_2
    _ = W1 m ρ c (Proc.devRef .tc main_v3) := by keeps hostOps0_1

/-- The target-node list is written once, in the first stretch, and kept to stage 11. -/
theorem dst_at11 (c : Dev nD) : W11 m ρ c (Proc.devRef .tc main_v6) = W1 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by keeps hostOps4
    _ = W8 m ρ c (Proc.devRef .tc main_v6) := W9_of_ne m ρ c main_v6 (by decide)
    _ = W7 m ρ c (Proc.devRef .tc main_v6) := by keeps hostOps3
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps hostOps1
    _ = W3 m ρ c (Proc.devRef .tc main_v6) := W4_of_ne m ρ c main_v6 (by decide)
    _ = W2 m ρ c (Proc.devRef .tc main_v6) := by keeps hostOps0_2
    _ = W1 m ρ c (Proc.devRef .tc main_v6) := by keeps hostOps0_1

/-- The edge weights are written once, before the first region, and kept to stage 7. -/
theorem norm_at7 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by keeps hostOps1
    _ = W3 m ρ c (Proc.devRef .tc main_v29) := W4_of_ne m ρ c main_v29 (by decide)

/-- The edge weights are written once, before the first region, and kept to stage 9. -/
theorem norm_at9 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := by keeps hostOps3
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by keeps hostOps1
    _ = W3 m ρ c (Proc.devRef .tc main_v29) := W4_of_ne m ρ c main_v29 (by decide)

/-- The edge weights are written once, before the first region, and kept to stage 11. -/
theorem norm_at11 (c : Dev nD) : W11 m ρ c (Proc.devRef .tc main_v29) = W3 m ρ c (Proc.devRef .tc main_v29) :=
  calc W11 m ρ c (Proc.devRef .tc main_v29)
    _ = W10 m ρ c (Proc.devRef .tc main_v29) := W11_of_ne m ρ c main_v29 (by decide)
    _ = W9 m ρ c (Proc.devRef .tc main_v29) := by keeps hostOps4
    _ = W8 m ρ c (Proc.devRef .tc main_v29) := W9_of_ne m ρ c main_v29 (by decide)
    _ = W7 m ρ c (Proc.devRef .tc main_v29) := by keeps hostOps3
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by keeps hostOps1
    _ = W3 m ρ c (Proc.devRef .tc main_v29) := W4_of_ne m ρ c main_v29 (by decide)

end Cert.KernelIdeal.Fold

end
-- ==== Proof.KHost.lean ====
/-
  What the host stretches of the kernel's @main compute, named by the reference's own stage functions.

  Both programs build the graph the same way: the source and target node lists are the edge list's two rows, each
  followed by one self loop per node; the degree of a node is the number of list entries that target it; an edge's
  weight is the product of the reciprocal square roots of its two endpoints' degrees (zero where the degree is not
  positive).  One sparse product `spmm` gathers a feature matrix's rows at the sources (a negative index wrapped
  once), scales each by its edge's weight and adds it into the row of its target.  The kernel's three stretches
  that do this are, operation for operation, the reference's: each is read back here as `spmm` of the matrix the
  preceding region left.  The small layout operations are read at an index: a bias vector reshaped to one row, and
  the projection weight's upper and lower halves.
-/
import proofs.«167491_j8246337208594_1_alg».proof.Proof.Gen.KernelIdeal.Frame
import proofs.«167491_j8246337208594_1_alg».proof.Proof.KFold
import proofs.«167491_j8246337208594_1_alg».proof.Proof.RefRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP (val_main_v3 val_main_v6 val_main_v14 val_main_v29 val_main_v64 val_main_v70 val_main_v73 val_main_v75 val_main_v76 val_main_v77
  val_main_v82 val_main_v95 val_main_v100 val_main_v113)

variable {F : FTy → Type} [FloatOps F]

/-! ## The sparse product -/

/-- `spmm x0 h`: gather the rows of `h` at the sources of the edge list `x0` (self loops appended), scale each by its
    edge's weight, add it into the row of its target.  Written with the reference's own stages of the edge list. -/
def spmm (x0 : (⟨Cert.ReferenceIdeal.S2x1600000, .i32⟩ : BufTy).Contents (Elt F)) (h : (⟨Cert.ReferenceIdeal.S100000x128, .f32⟩ : BufTy).Contents (Elt F)) :
    (⟨Cert.ReferenceIdeal.S100000x128, .f32⟩ : BufTy).Contents (Elt F) :=
  Host.scatterAdd Cert.ReferenceIdeal.scatter_S100000x128_S1700000x1_S1700000x128_1_0_0_1 (val_main_v75 (F := F)) (val_main_v76 (F := F) x0)
    (mulf (Host.gather Cert.ReferenceIdeal.gather_S100000x128_S1700000x1_S1700000x128_1_0_n_n_0_1_1128 h (val_main_v70 (F := F) x0)) (val_main_v73 (F := F) x0))

section Reference
variable (x0 : (⟨Cert.ReferenceIdeal.S2x1600000, .i32⟩ : BufTy).Contents (Elt F)) (x1 : (⟨Cert.ReferenceIdeal.S100000x768, .f32⟩ : BufTy).Contents (Elt F))
  (x2 : (⟨Cert.ReferenceIdeal.S100000x128, .f32⟩ : BufTy).Contents (Elt F)) (x3 : (⟨Cert.ReferenceIdeal.S768x128, .f32⟩ : BufTy).Contents (Elt F))
  (x4 x5 x6 : (⟨Cert.ReferenceIdeal.S128, .f32⟩ : BufTy).Contents (Elt F)) (x7 : (⟨Cert.ReferenceIdeal.S256x128, .f32⟩ : BufTy).Contents (Elt F))
  (x8 : (⟨Cert.ReferenceIdeal.S128, .f32⟩ : BufTy).Contents (Elt F)) (x9 : (⟨Cert.ReferenceIdeal.S128x128, .f32⟩ : BufTy).Contents (Elt F))
  (x10 : (⟨Cert.ReferenceIdeal.S128, .f32⟩ : BufTy).Contents (Elt F)) (x11 : (⟨Cert.ReferenceIdeal.S128x128, .f32⟩ : BufTy).Contents (Elt F))
  (x12 : (⟨Cert.ReferenceIdeal.S128, .f32⟩ : BufTy).Contents (Elt F)) (x13 : (⟨Cert.ReferenceIdeal.S128x128, .f32⟩ : BufTy).Contents (Elt F))

/-- The reference's first aggregation is the sparse product of its first layer's dense product. -/
theorem ref_spmm0 : val_main_v77 (F := F) x0 x1 x2 x3 x4 x5 x6 x7 x8 x9 = spmm x0 (val_main_v64 (F := F) x1 x2 x3 x4 x5 x6 x7 x8 x9) := rfl
/-- The second aggregation: the same lists and weights (recomputed by the program, the same terms). -/
theorem ref_spmm1 : val_main_v95 (F := F) x0 x1 x2 x3 x4 x5 x6 x7 x8 x9 x10 x11 = spmm x0 (val_main_v82 (F := F) x0 x1 x2 x3 x4 x5 x6 x7 x8 x9 x10 x11) := rfl
/-- The third aggregation. -/
theorem ref_spmm2 : val_main_v113 (F := F) x0 x1 x2 x3 x4 x5 x6 x7 x8 x9 x10 x11 x12 x13 = spmm x0 (val_main_v100 (F := F) x0 x1 x2 x3 x4 x5 x6 x7 x8 x9 x10 x11 x12 x13) := rfl
end Reference

/-! ## The kernel's stretches -/

variable (m : (ℓ : Loc nD τ sig) → Buf (Elt F) ℓ) (ρ : Dev nD → PrngReg)

/-- The source list after the first stretch is the reference's. -/
theorem src_eq (c : Dev nD) : W1 m ρ c (Proc.devRef .tc main_v3) = val_main_v3 (F := F) (m ((c : Thread nD τ).loc main_arg0)) := by
  show StableHlo.after hostOps0 (W0 m ρ c) (Proc.devRef .tc main_v3) = _
  after_results
  rfl

/-- The target list after the first stretch is the reference's. -/
theorem dst_eq (c : Dev nD) : W1 m ρ c (Proc.devRef .tc main_v6) = val_main_v6 (F := F) (m ((c : Thread nD τ).loc main_arg0)) := by
  show StableHlo.after hostOps0 (W0 m ρ c) (Proc.devRef .tc main_v6) = _
  after_results
  rfl

set_option maxHeartbeats 4000000 in
/-- The edge weights before the first region are the reference's: degree by scatter-add of ones, its reciprocal
    square root where positive, gathered at both endpoints and multiplied. -/
theorem norm_eq (c : Dev nD) : W3 m ρ c (Proc.devRef .tc main_v29) = val_main_v29 (F := F) (m ((c : Thread nD τ).loc main_arg0)) := by
  show StableHlo.after hostOps0_2 (StableHlo.after hostOps0_1 (StableHlo.after hostOps0 (W0 m ρ c))) (Proc.devRef .tc main_v29) = _
  after_results_simp
  rfl

set_option maxHeartbeats 4000000 in
/-- The stretch before region 3 is the sparse product of what region 2 left. -/
theorem ker_spmm0 (c : Dev nD) : W8 m ρ c (Proc.devRef .tc main_v51) = spmm (m ((c : Thread nD τ).loc main_arg0)) (W7 m ρ c (Proc.devRef .tc main_v38)) := by
  show StableHlo.after hostOps3 (W7 m ρ c) (Proc.devRef .tc main_v51) = _
  after_results_simp
  rw [Fold.src_at7 m ρ c, Fold.dst_at7 m ρ c, Fold.norm_at7 m ρ c, src_eq m ρ c, dst_eq m ρ c, norm_eq m ρ c]
  rfl

set_option maxHeartbeats 4000000 in
/-- The stretch before region 4 is the sparse product of what region 3 left. -/
theorem ker_spmm1 (c : Dev nD) : W10 m ρ c (Proc.devRef .tc main_v66) = spmm (m ((c : Thread nD τ).loc main_arg0)) (W9 m ρ c (Proc.devRef .tc main_v53)) := by
  show StableHlo.after hostOps4 (W9 m ρ c) (Proc.devRef .tc main_v66) = _
  after_results_simp
  rw [Fold.src_at9 m ρ c, Fold.dst_at9 m ρ c, Fold.norm_at9 m ρ c, src_eq m ρ c, dst_eq m ρ c, norm_eq m ρ c]
  rfl

set_option maxHeartbeats 4000000 in
/-- The stretch before region 5 is the sparse product of what region 4 left. -/
theorem ker_spmm2 (c : Dev nD) : W12 m ρ c (Proc.devRef .tc main_v81) = spmm (m ((c : Thread nD τ).loc main_arg0)) (W11 m ρ c (Proc.devRef .tc main_v68)) := by
  show StableHlo.after hostOps5 (W11 m ρ c) (Proc.devRef .tc main_v81) = _
  after_results_simp
  rw [Fold.src_at11 m ρ c, Fold.dst_at11 m ρ c, Fold.norm_at11 m ρ c, src_eq m ρ c, dst_eq m ρ c, norm_eq m ρ c]
  rfl

/-! ## Small layout operations read at an index -/

set_option maxHeartbeats 4000000 in
/-- The encoder's bias as one row: entry (0, j) is the vector's entry j. -/
theorem row_enc_b (c : Dev nD) (j : Fin 128) : W3 m ρ c (Proc.devRef .tc main_v30) (ix2 (0 : Fin 1) j) = m ((c : Thread nD τ).loc main_arg4) (ix1 j) := by
  have e : W3 m ρ c (Proc.devRef .tc main_v30) = shapeCast S1x128 (W2 m ρ c (Proc.devRef .tc main_arg4)) shapeCasts_S128_S1x128 := by
    show StableHlo.after hostOps0_2 (W2 m ρ c) (Proc.devRef .tc main_v30) = _
    after_results_simp
    try rfl
  rw [e, shapeCast_a_1a_apply, Fold.arg4_at2 m ρ c]

set_option maxHeartbeats 4000000 in
/-- The LayerNorm gain as one row. -/
theorem row_ln_g (c : Dev nD) (j : Fin 128) : W3 m ρ c (Proc.devRef .tc main_v31) (ix2 (0 : Fin 1) j) = m ((c : Thread nD τ).loc main_arg5) (ix1 j) := by
  have e : W3 m ρ c (Proc.devRef .tc main_v31) = shapeCast S1x128 (W2 m ρ c (Proc.devRef .tc main_arg5)) shapeCasts_S128_S1x128 := by
    show StableHlo.after hostOps0_2 (W2 m ρ c) (Proc.devRef .tc main_v31) = _
    after_results_simp
    try rfl
  rw [e, shapeCast_a_1a_apply, Fold.arg5_at2 m ρ c]

set_option maxHeartbeats 4000000 in
/-- The LayerNorm shift as one row. -/
theorem row_ln_b (c : Dev nD) (j : Fin 128) : W3 m ρ c (Proc.devRef .tc main_v32) (ix2 (0 : Fin 1) j) = m ((c : Thread nD τ).loc main_arg6) (ix1 j) := by
  have e : W3 m ρ c (Proc.devRef .tc main_v32) = shapeCast S1x128 (W2 m ρ c (Proc.devRef .tc main_arg6)) shapeCasts_S128_S1x128 := by
    show StableHlo.after hostOps0_2 (W2 m ρ c) (Proc.devRef .tc main_v32) = _
    after_results_simp
    try rfl
  rw [e, shapeCast_a_1a_apply, Fold.arg6_at2 m ρ c]

/-- The projection's bias as one row. -/
theorem row_proj_b (c : Dev nD) (j : Fin 128) : W5 m ρ c (Proc.devRef .tc main_v36) (ix2 (0 : Fin 1) j) = m ((c : Thread nD τ).loc main_arg8) (ix1 j) := by
  have e : W5 m ρ c (Proc.devRef .tc main_v36) = shapeCast S1x128 (W4 m ρ c (Proc.devRef .tc main_arg8)) shapeCasts_S128_S1x128 := by
    show StableHlo.after hostOps1 (W4 m ρ c) (Proc.devRef .tc main_v36) = _
    after_results
    try rfl
  rw [e, shapeCast_a_1a_apply, Fold.arg8_at4 m ρ c]

/-- The first layer's bias as one row. -/
theorem row_b0 (c : Dev nD) (j : Fin 128) : W8 m ρ c (Proc.devRef .tc main_v52) (ix2 (0 : Fin 1) j) = m ((c : Thread nD τ).loc main_arg10) (ix1 j) := by
  have e : W8 m ρ c (Proc.devRef .tc main_v52) = shapeCast S1x128 (W7 m ρ c (Proc.devRef .tc main_arg10)) shapeCasts_S128_S1x128 := by
    show StableHlo.after hostOps3 (W7 m ρ c) (Proc.devRef .tc main_v52) = _
    after_results
    try rfl
  rw [e, shapeCast_a_1a_apply, Fold.arg10_at7 m ρ c]

/-- The second layer's bias as one row. -/
theorem row_b1 (c : Dev nD) (j : Fin 128) : W10 m ρ c (Proc.devRef .tc main_v67) (ix2 (0 : Fin 1) j) = m ((c : Thread nD τ).loc main_arg12) (ix1 j) := by
  have e : W10 m ρ c (Proc.devRef .tc main_v67) = shapeCast S1x128 (W9 m ρ c (Proc.devRef .tc main_arg12)) shapeCasts_S128_S1x128 := by
    show StableHlo.after hostOps4 (W9 m ρ c) (Proc.devRef .tc main_v67) = _
    after_results
    try rfl
  rw [e, shapeCast_a_1a_apply, Fold.arg12_at9 m ρ c]

/-- The last layer's bias as one row. -/
theorem row_b2 (c : Dev nD) (j : Fin 128) : W12 m ρ c (Proc.devRef .tc main_v82) (ix2 (0 : Fin 1) j) = m ((c : Thread nD τ).loc main_arg14) (ix1 j) := by
  have e : W12 m ρ c (Proc.devRef .tc main_v82) = shapeCast S1x128 (W11 m ρ c (Proc.devRef .tc main_arg14)) shapeCasts_S128_S1x128 := by
    show StableHlo.after hostOps5 (W11 m ρ c) (Proc.devRef .tc main_v82) = _
    after_results
    try rfl
  rw [e, shapeCast_a_1a_apply, Fold.arg14_at11 m ρ c]

/-- The projection weight's upper half: entry (k, j) is the stacked weight's entry (k, j). -/
theorem proj_top (c : Dev nD) (k j : Fin 128) :
    W5 m ρ c (Proc.devRef .tc main_v34) (ix2 k j) = m ((c : Thread nD τ).loc main_arg7) (ix2 (⟨k.val, by omega⟩ : Fin 256) j) := by
  have e : W5 m ρ c (Proc.devRef .tc main_v34) = extractStridedSlice S128x128 ![0, 0] (W4 m ρ c (Proc.devRef .tc main_arg7)) slices_S256x128_S128x128_0_0 := by
    show StableHlo.after hostOps1 (W4 m ρ c) (Proc.devRef .tc main_v34) = _
    after_results
    try rfl
  rw [e, slice2_axis0_apply 0 _ _ k j (⟨k.val, by omega⟩ : Fin 256) (by simp), Fold.arg7_at4 m ρ c]

/-- The projection weight's lower half: entry (k, j) is the stacked weight's entry (128 + k, j). -/
theorem proj_bot (c : Dev nD) (k j : Fin 128) :
    W5 m ρ c (Proc.devRef .tc main_v35) (ix2 k j) = m ((c : Thread nD τ).loc main_arg7) (ix2 (⟨128 + k.val, by omega⟩ : Fin 256) j) := by
  have e : W5 m ρ c (Proc.devRef .tc main_v35) = extractStridedSlice S128x128 ![128, 0] (W4 m ρ c (Proc.devRef .tc main_arg7)) slices_S256x128_S128x128_128_0 := by
    show StableHlo.after hostOps1 (W4 m ρ c) (Proc.devRef .tc main_v35) = _
    after_results
    try rfl
  rw [e, slice2_axis0_apply 128 _ _ k j (⟨128 + k.val, by omega⟩ : Fin 256) rfl, Fold.arg7_at4 m ρ c]

/-! ## Inputs that a stretch passes through unchanged to the region after it -/

/-- The node embeddings reach region 1 as launched. -/
theorem emb_at5 (c : Dev nD) : W5 m ρ c (Proc.devRef .tc main_arg2) = m ((c : Thread nD τ).loc main_arg2) :=
  (show W5 m ρ c (Proc.devRef .tc main_arg2) = W4 m ρ c (Proc.devRef .tc main_arg2) from by keeps hostOps1).trans (Fold.arg2_at4 m ρ c)
/-- The encoder's output reaches region 1 as region 0 left it. -/
theorem feat_at5 (c : Dev nD) : W5 m ρ c (Proc.devRef .tc main_v33) = W4 m ρ c (Proc.devRef .tc main_v33) := by keeps hostOps1
/-- The second layer's weight reaches region 3 as launched. -/
theorem w1_at8 (c : Dev nD) : W8 m ρ c (Proc.devRef .tc main_arg11) = m ((c : Thread nD τ).loc main_arg11) :=
  (show W8 m ρ c (Proc.devRef .tc main_arg11) = W7 m ρ c (Proc.devRef .tc main_arg11) from by keeps hostOps3).trans (Fold.arg11_at7 m ρ c)
/-- The third layer's weight reaches region 4 as launched. -/
theorem w2_at10 (c : Dev nD) : W10 m ρ c (Proc.devRef .tc main_arg13) = m ((c : Thread nD τ).loc main_arg13) :=
  (show W10 m ρ c (Proc.devRef .tc main_arg13) = W9 m ρ c (Proc.devRef .tc main_arg13) from by keeps hostOps4).trans (Fold.arg13_at9 m ρ c)

end Cert.KernelIdeal.Host

end
-- ==== Proof.GcnDefs.lean ====
/-
  The whole network as one function of the fifteen argument arrays, built from the dense stages (Proof/Spec.lean)
  and the sparse product (Proof/KHost.lean): encode the external features, project them together with the
  embeddings, then three graph convolutions — a dense product, the sparse product over the normalised adjacency,
  the bias, and between layers a relu — the last one without relu.
-/
import proofs.«167491_j8246337208594_1_alg».proof.Proof.Spec
import proofs.«167491_j8246337208594_1_alg».proof.Proof.KHost

noncomputable section

namespace Cert.Gcn

open Idealize.ShloMosaic Idealize.ShloMosaic.ValueIdx
open Cert.KernelIdeal.Host (spmm)

variable (x0 : (⟨Cert.ReferenceIdeal.S2x1600000, .i32⟩ : BufTy).Contents (Elt Ideal)) (x1 : (⟨Cert.ReferenceIdeal.S100000x768, .f32⟩ : BufTy).Contents (Elt Ideal)) (x2 : (⟨Cert.ReferenceIdeal.S100000x128, .f32⟩ : BufTy).Contents (Elt Ideal)) (x3 : (⟨Cert.ReferenceIdeal.S768x128, .f32⟩ : BufTy).Contents (Elt Ideal)) (x4 x5 x6 : (⟨Cert.ReferenceIdeal.S128, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128x128, .f32⟩ : BufTy).Contents (Elt Ideal)) (x14 : (⟨Cert.ReferenceIdeal.S128, .f32⟩ : BufTy).Contents (Elt Ideal))

/-- A vector [128] as a function of its coordinate. -/
abbrev vec (v : (⟨Cert.ReferenceIdeal.S128, .f32⟩ : BufTy).Contents (Elt Ideal)) : Fin 128 → EReal := fun j => v (ix1 j)
/-- The upper half of the stacked projection weight [256, 128]. -/
abbrev top (w : (⟨Cert.ReferenceIdeal.S256x128, .f32⟩ : BufTy).Contents (Elt Ideal)) : Fin 128 → Fin 128 → EReal := fun k j => w (ix2 (⟨k.val, by omega⟩ : Fin 256) j)
/-- The lower half of the stacked projection weight. -/
abbrev bot (w : (⟨Cert.ReferenceIdeal.S256x128, .f32⟩ : BufTy).Contents (Elt Ideal)) : Fin 128 → Fin 128 → EReal := fun k j => w (ix2 (⟨128 + k.val, by omega⟩ : Fin 256) j)

/-- The encoded external features. -/
def gFeat : FVec Ideal SNH .f32 := enc x1 x3 (vec x4) (vec x5) (vec x6)
/-- The fused node features. -/
def gX : FVec Ideal SNH .f32 := proj x2 (gFeat x1 x3 x4 x5 x6) (top x7) (bot x7) (vec x8)
/-- Layer 0 before aggregation. -/
def gH0 : FVec Ideal SNH .f32 := mm (gX x1 x2 x3 x4 x5 x6 x7 x8) x9
/-- Layer 1 before aggregation: layer 0 aggregated, biased, clamped, multiplied. -/
def gH1 : FVec Ideal SNH .f32 := actmm (spmm (F := Ideal) x0 (gH0 x1 x2 x3 x4 x5 x6 x7 x8 x9)) (vec x10) x11
/-- Layer 2 before aggregation. -/
def gH2 : FVec Ideal SNH .f32 := actmm (spmm (F := Ideal) x0 (gH1 x0 x1 x2 x3 x4 x5 x6 x7 x8 x9 x10 x11)) (vec x12) x13
/-- The network's output. -/
def gOut : FVec Ideal SNH .f32 := bias (spmm (F := Ideal) x0 (gH2 x0 x1 x2 x3 x4 x5 x6 x7 x8 x9 x10 x11 x12 x13)) (vec x14)

end Cert.Gcn

end
-- ==== Proof.RegionEncBlock.lean ====
/-
  The encoder region's blocks, read off the arrays as the region finds them.

  The grid has 50 points; point `t` stages rows 2000·t … 2000·t + 1999 of the external features (all 768 columns)
  and writes back the same rows of the output (all 128 columns); the weight and the three [1, 128] rows are staged
  whole at every point.  So entry (p, k) of the feature block at `t` is entry (2000·t + p, k) of the array, a whole
  block is its array, and entry (p, q) of the output block at `t` sits at (2000·t + p, q) of the output array.
-/
import proofs.«167491_j8246337208594_1_alg».proof.Proof.Gen.KernelIdeal.Frame
import Idealize.ShloMosaic.Lib.Pipeline.Value
import Idealize.ShloMosaic.Lib.ValueIdx

noncomputable section

namespace Cert.KernelIdeal.RegionEnc

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, spelt as a constant function. -/
theorem hz : (![0, 0] : Fin 2 → Nat) = fun _ => 0 := funext fun a => by fin_cases a <;> rfl

/-- The index maps over the 50 grid points: the feature window and the output window are at block (t, 0); the weight
    and the three rows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is a row of the array. -/
theorem row_lt (t : Fin cfg0.N) (p : Fin 2000) : 2000 * t.val + p.val < 100000 := by
  have hN : cfg0.N = 50 := N_0
  have := t.isLt
  have := p.isLt
  omega

/-- The feature block at point `t`: entry (p, k) is the array's entry (2000·t + p, k). -/
theorem blk0_apply (c : Dev nD) (t : Fin cfg0.N) (p : Fin 2000) (k : Fin 768) :
    (iblk0 V c 0 t : Vec Ideal S2000x768 .f32) (ix2 p k)
      = (V c (Pipeline.arrRef spec0 0) : Vec Ideal S100000x768 .f32) (ix2 ⟨2000 * t.val + p.val, row_lt t p⟩ k) := by
  obtain ⟨e0, e1, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 768 + 1 * k.val = k.val; omega

/-- The weight's block at every point is the weight. -/
theorem blk1_eq (c : Dev nD) (t : Fin cfg0.N) :
    (iblk0 V c 1 t : Vec Ideal S768x128 .f32) = (V c (Pipeline.arrRef spec0 1) : Vec Ideal S768x128 .f32) := by
  obtain ⟨-, -, e0, e1, -⟩ := idx_facts t
  funext y
  show V c (Pipeline.arrRef spec0 1) (((cfg0.win 1).blk t).view.emb y) = _
  refine congrArg _ (funext fun a => Fin.ext ?_)
  match a with
  | ⟨0, _⟩ => show win0_1.index t (0 : Fin 2) * 768 + 1 * (y 0).val = (y 0).val; omega
  | ⟨1, _⟩ => show win0_1.index t (1 : Fin 2) * 128 + 1 * (y 1).val = (y 1).val; omega

/-- Each [1, 128] row's block at every point is the row. -/
theorem blk2_eq (c : Dev nD) (t : Fin cfg0.N) :
    (iblk0 V c 2 t : Vec Ideal S1x128 .f32) = (V c (Pipeline.arrRef spec0 2) : Vec Ideal S1x128 .f32) := by
  obtain ⟨-, -, -, -, e0, e1, -⟩ := idx_facts t
  funext y
  show V c (Pipeline.arrRef spec0 2) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem blk3_eq (c : Dev nD) (t : Fin cfg0.N) :
    (iblk0 V c 3 t : Vec Ideal S1x128 .f32) = (V c (Pipeline.arrRef spec0 3) : Vec Ideal S1x128 .f32) := by
  obtain ⟨-, -, -, -, -, -, e0, e1, -⟩ := idx_facts t
  funext y
  show V c (Pipeline.arrRef spec0 3) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem blk4_eq (c : Dev nD) (t : Fin cfg0.N) :
    (iblk0 V c 4 t : Vec Ideal S1x128 .f32) = (V c (Pipeline.arrRef spec0 4) : Vec Ideal S1x128 .f32) := by
  obtain ⟨-, -, -, -, -, -, -, -, e0, e1, -⟩ := idx_facts t
  funext y
  show V c (Pipeline.arrRef spec0 4) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The output block at point `t`: its entry (p, q) sits at (2000·t + p, q) of the output array. -/
theorem emb5 (t : Fin cfg0.N) (p : Fin 2000) (q : Fin 128) :
    (((cfg0.win 5).blk t).view.emb (ix2 p q) : S100000x128.Idx) = ix2 ⟨2000 * t.val + p.val, row_lt t p⟩ q := by
  obtain ⟨-, -, -, -, -, -, -, -, -, -, e0, e1⟩ := idx_facts t
  refine funext fun a => Fin.ext ?_
  match a with
  | ⟨0, _⟩ => show win0_5.index t (0 : Fin 2) * 2000 + 1 * p.val = 2000 * t.val + p.val; omega
  | ⟨1, _⟩ => show win0_5.index t (1 : Fin 2) * 128 + 1 * q.val = q.val; omega

/-- An entry of the output array is in point `t`'s block iff each coordinate is in the block's range on its axis. -/
theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v33).slice (win0_5.rect t)).set ↔ _
  rw [View.set_slice_whole, Rect.mem_set_unit]
  exact Iff.rfl

end Cert.KernelIdeal.RegionEnc

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.RegionEncOps.lean ====
/-
  The encoder block's non-pointwise operations, each read at an entry given by its coordinates.

  A block is 2000 rows.  Row `p` of the product of a [2000, 768] block with the [768, 128] weight, at column `q`, is the
  sum over the 768 features of the row's entries times the weight's column; the sum of a [2000, 128] matrix along
  its rows, at row `p`, is the sum of the 128 entries of that row; a row statistic kept as a column [2000, 1] and
  repeated along the row reads, at (p, q), the statistic of row `p`; a [1, 128] row repeated over the 2000 rows
  reads, at (p, q), its entry `q`.
-/
import proofs.«167491_j8246337208594_1_alg».proof.Proof.Gen.KernelIdeal.Skeleton
import proofs.«167491_j8246337208594_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionEnc

open Cert.KernelIdeal Cert.KernelIdeal.Gen Idealize.ShloMosaic Idealize.ShloMosaic.ValueIdx
open scoped BigOperators

/-- The product's operand indices at an output entry and a contraction index: the left operand keeps the output's row, the
    right operand the output's column. -/
theorem lhs_row (i : S2000x128.Idx) (k : dot_S2000x768_S768x128_S2000x128_1_0_0_1_n_n.contr.Idx) :
    (dot_S2000x768_S768x128_S2000x128_1_0_0_1_n_n.lhsIdx i k 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
theorem rhs_col (i : S2000x128.Idx) (k : dot_S2000x768_S768x128_S2000x128_1_0_0_1_n_n.contr.Idx) :
    (dot_S2000x768_S768x128_S2000x128_1_0_0_1_n_n.rhsIdx i k 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The block product: entry (p, q) is the sum over the contracted axis. -/
theorem mm_apply (x : FVec Ideal S2000x768 .bf16) (w : FVec Ideal S768x128 .bf16) (p : Fin 2000) (q : Fin 128) :
    matmul dot_S2000x768_S768x128_S2000x128_1_0_0_1_n_n none x w (constant (F := Ideal) S2000x128 .f32 0x00000000#32) (ix2 p q)
      = ∑ k : Fin 768, x (ix2 p k) * w (ix2 k q) := by
  simp only [matmul]
  rw [Ideal.matmul_constant_zero_apply, ← Equiv.sum_comp (ValueIdx.contrEquiv1 dot_S2000x768_S768x128_S2000x128_1_0_0_1_n_n 768 rfl rfl).symm]
  refine Finset.sum_congr rfl fun k _ => ?_
  have hk := ValueIdx.contrEquiv1_symm_val dot_S2000x768_S768x128_S2000x128_1_0_0_1_n_n 768 rfl rfl k
  have el : dot_S2000x768_S768x128_S2000x128_1_0_0_1_n_n.lhsIdx (ix2 p q) ((ValueIdx.contrEquiv1 dot_S2000x768_S768x128_S2000x128_1_0_0_1_n_n 768 rfl rfl).symm k) = ix2 p k := funext fun a => Fin.ext (by
    match a with
    | ⟨0, _⟩ => exact lhs_row _ _
    | ⟨1, _⟩ => exact (dot_S2000x768_S768x128_S2000x128_1_0_0_1_n_n.lhsIdx_val_of_single rfl _ _).trans hk)
  have er : dot_S2000x768_S768x128_S2000x128_1_0_0_1_n_n.rhsIdx (ix2 p q) ((ValueIdx.contrEquiv1 dot_S2000x768_S768x128_S2000x128_1_0_0_1_n_n 768 rfl rfl).symm k) = ix2 k q := funext fun a => Fin.ext (by
    match a with
    | ⟨0, _⟩ => exact (dot_S2000x768_S768x128_S2000x128_1_0_0_1_n_n.rhsIdx_val_of_single rfl _ _).trans hk
    | ⟨1, _⟩ => exact rhs_col _ _)
  rw [el, er]

/-- The sum along the rows: entry `p` is the sum of row `p`. -/
theorem rowsum_apply (y : FVec Ideal S2000x128 .f32) (hφ : FKind.Formats .f32) (hacc : (0x00000000#32 : BitVec 32) = FKind.add.neutral .f32 hφ) (p : Fin 2000) :
    multiReduction .add [1] S2000 y 0x00000000#32 reduces_S2000x128_S2000 hφ hacc (ix1 p) = ∑ k : Fin 128, y (ix2 p k) := by
  refine (Ideal.multiReduction_add_single y 0x00000000#32 reduces_S2000x128_S2000 hφ hacc (ix1 p)).trans ?_
  show ∑ k : Fin 128, y (reduces_S2000x128_S2000.lift (ix1 p) k) = _
  refine Finset.sum_congr rfl fun k _ => congrArg y (funext fun a => Fin.ext ?_)
  match a with
  | ⟨0, _⟩ => rfl
  | ⟨1, _⟩ => rfl

/-- A row sum kept as a column: entry (p, 0) of the column is entry `p` of the vector. -/
theorem col_apply (v : FVec Ideal S2000 .f32) (p : Fin 2000) :
    shapeCast S2000x1 v shapeCasts_S2000_S2000x1 (ix2 p (0 : Fin 1)) = v (ix1 p) :=
  Cert.Column.shapeCast_a_a1_apply v shapeCasts_S2000_S2000x1 p 0

/-- A column repeated along the rows: entry (p, q) is the column's entry of row `p`. -/
theorem colrep_apply (v : FVec Ideal S2000x1 .f32) (p : Fin 2000) (q : Fin 128) :
    broadcastTo S2000x128 v broadcasts_S2000x1_S2000x128 (ix2 p q) = v (ix2 p (0 : Fin 1)) :=
  Cert.Column.broadcastTo_a1_ab_apply v broadcasts_S2000x1_S2000x128 p q

/-- A [1, 128] row repeated over the rows: entry (p, q) is the row's entry `q`. -/
theorem rowrep_apply (v : FVec Ideal S1x128 .f32) (p : Fin 2000) (q : Fin 128) :
    broadcastTo S2000x128 (shapeCast S1x128 v shapeCasts_S1x128_S1x128) broadcasts_S1x128_S2000x128 (ix2 p q) = v (ix2 (0 : Fin 1) q) := by
  rw [shapeCast_self]
  exact broadcastTo_1b_ab_apply v broadcasts_S1x128_S2000x128 p q

end Cert.KernelIdeal.RegionEnc

end
-- ==== Proof.RegionEncPay.lean ====
/-
  The encoder block's arithmetic, read at one entry.

  From a block of 2000 rows of external features the body computes, row by row: the linear map x·w + b; the row's
  mean and the mean of the squared deviations, each the sum of the row's 128 entries divided by the word of 128; the
  deviation times the reciprocal square root of the shifted variance, times the gain, plus the shift; and the
  maximum with the zero word.  Every step uses only the entries of the same row, so entry (p, q) of the result is the
  one-row encoder `rowEnc` of row `p` of the block, at column `q`; the specification's `Gcn.enc` at (r, j) is the same
  one-row function of row `r` of the whole array.
-/
import proofs.«167491_j8246337208594_1_alg».proof.Proof.RegionEncOps
import proofs.«167491_j8246337208594_1_alg».proof.Proof.Spec

noncomputable section

namespace Cert.KernelIdeal.RegionEnc

open Cert.KernelIdeal Cert.KernelIdeal.Gen Idealize.ShloMosaic Idealize.ShloMosaic.ValueIdx
open scoped BigOperators

/-- One row of x·w + b, from the row's 768 features. -/
def rowLin (xr : Fin 768 → EReal) (w : FVec Ideal Cert.Gcn.SXH .f32) (b : Fin 128 → EReal) (j : Fin 128) : EReal :=
  (∑ k : Fin 768, xr k * w (ix2 k j)) + b j

/-- One row of the encoder, from the row's 768 features. -/
def rowEnc (xr : Fin 768 → EReal) (w : FVec Ideal Cert.Gcn.SXH .f32) (b g lb : Fin 128 → EReal) (j : Fin 128) : EReal :=
  max ((rowLin xr w b j - Cert.Gcn.rowMean (rowLin xr w b))
        * Ideal.rsqrt (Cert.Gcn.rowMean (fun j => (rowLin xr w b j - Cert.Gcn.rowMean (rowLin xr w b)) * (rowLin xr w b j - Cert.Gcn.rowMean (rowLin xr w b))) + Cert.Gcn.eps32)
        * g j + lb j) Cert.Gcn.zero32

/-- The specification's encoder at (r, j) is the one-row encoder of row `r`. -/
theorem enc_row (x : FVec Ideal Cert.Gcn.SNX .f32) (w : FVec Ideal Cert.Gcn.SXH .f32) (b g lb : Fin 128 → EReal) (r : Fin 100000) (j : Fin 128) :
    Cert.Gcn.enc x w b g lb (ix2 r j) = rowEnc (fun k => x (ix2 r k)) w b g lb j := rfl

/-- The block's linear map at (p, k). -/
theorem lin_apply (x : Vec Ideal S2000x768 .f32) (w : Vec Ideal S768x128 .f32) (b : Vec Ideal S1x128 .f32) (p : Fin 2000) (k : Fin 128) :
    addf (matmul dot_S2000x768_S768x128_S2000x128_1_0_0_1_n_n none (truncf .bf16 x bitsLt_bf16_f32) (truncf .bf16 w bitsLt_bf16_f32) (constant (F := Ideal) S2000x128 .f32 0x00000000#32))
        (broadcastTo S2000x128 (shapeCast S1x128 b shapeCasts_S1x128_S1x128) broadcasts_S1x128_S2000x128) (ix2 p k)
      = rowLin (fun kk => x (ix2 p kk)) w (fun j => b (ix2 (0 : Fin 1) j)) k := by
  refine (addf_apply _ _ _).trans ?_
  rw [mm_apply, rowrep_apply]
  rfl

/-- The mean of each row kept as a column: at (p, 0), the mean of row `p`. -/
theorem mean_apply (y : FVec Ideal S2000x128 .f32) (hφ : FKind.Formats .f32) (hacc : (0x00000000#32 : BitVec 32) = FKind.add.neutral .f32 hφ) (p : Fin 2000) :
    divf (shapeCast S2000x1 (multiReduction .add [1] S2000 y 0x00000000#32 reduces_S2000x128_S2000 hφ hacc) shapeCasts_S2000_S2000x1)
        (broadcast S2000x1 (Scalar.ofBits (F := Ideal) .f32 0x43000000#32)) (ix2 p (0 : Fin 1))
      = Cert.Gcn.rowMean (fun j => y (ix2 p j)) := by
  refine (divf_apply _ _ _).trans ?_
  rw [col_apply, rowsum_apply]
  rfl

/-! ## The normalisation of a block, as functions of the block `y` of x·w + b -/

/-- The layer normalisation of one row, the gain and shift applied, then the maximum with the zero word. -/
def rowLN (yr : Fin 128 → EReal) (g lb : Fin 128 → EReal) (j : Fin 128) : EReal :=
  max ((yr j - Cert.Gcn.rowMean yr)
        * Ideal.rsqrt (Cert.Gcn.rowMean (fun j => (yr j - Cert.Gcn.rowMean yr) * (yr j - Cert.Gcn.rowMean yr)) + Cert.Gcn.eps32)
        * g j + lb j) Cert.Gcn.zero32

/-- The one-row encoder is the row normalisation of the row's linear map. -/
theorem rowEnc_eq (xr : Fin 768 → EReal) (w : FVec Ideal Cert.Gcn.SXH .f32) (b g lb : Fin 128 → EReal) (j : Fin 128) :
    rowEnc xr w b g lb j = rowLN (rowLin xr w b) g lb j := rfl

/-- The block of x·w + b. -/
def linBlk (x : Vec Ideal S2000x768 .f32) (w : Vec Ideal S768x128 .f32) (b : Vec Ideal S1x128 .f32) : FVec Ideal S2000x128 .f32 :=
  addf (matmul dot_S2000x768_S768x128_S2000x128_1_0_0_1_n_n none (truncf .bf16 x bitsLt_bf16_f32) (truncf .bf16 w bitsLt_bf16_f32) (constant (F := Ideal) S2000x128 .f32 0x00000000#32))
    (broadcastTo S2000x128 (shapeCast S1x128 b shapeCasts_S1x128_S1x128) broadcasts_S1x128_S2000x128)

/-- The rows' means, as a column. -/
def muCol (y : FVec Ideal S2000x128 .f32) : FVec Ideal S2000x1 .f32 :=
  divf (shapeCast S2000x1 (multiReduction .add [1] S2000 y 0x00000000#32 reduces_S2000x128_S2000 (.inl rfl) rfl) shapeCasts_S2000_S2000x1)
    (broadcast S2000x1 (Scalar.ofBits (F := Ideal) .f32 0x43000000#32))

theorem muCol_apply (y : FVec Ideal S2000x128 .f32) (p : Fin 2000) :
    muCol y (ix2 p (0 : Fin 1)) = Cert.Gcn.rowMean (fun j => y (ix2 p j)) := mean_apply y _ _ p

/-- The deviations from the row mean. -/
def dev (y : FVec Ideal S2000x128 .f32) : FVec Ideal S2000x128 .f32 :=
  subf y (broadcastTo S2000x128 (muCol y) broadcasts_S2000x1_S2000x128)

theorem dev_apply (y : FVec Ideal S2000x128 .f32) (p : Fin 2000) (k : Fin 128) :
    dev y (ix2 p k) = y (ix2 p k) - Cert.Gcn.rowMean (fun j => y (ix2 p j)) := by
  refine (subf_apply _ _ _).trans ?_
  rw [colrep_apply, muCol_apply]

/-- The reciprocal square root of the shifted mean squared deviation, as a column. -/
def rstdCol (y : FVec Ideal S2000x128 .f32) : FVec Ideal S2000x1 .f32 :=
  rsqrt (addf (muCol (mulf (dev y) (dev y))) (broadcast S2000x1 (Scalar.ofBits (F := Ideal) .f32 0x3727C5AC#32)))

theorem rstdCol_apply (y : FVec Ideal S2000x128 .f32) (p : Fin 2000) :
    rstdCol y (ix2 p (0 : Fin 1))
      = Ideal.rsqrt (Cert.Gcn.rowMean (fun j => (y (ix2 p j) - Cert.Gcn.rowMean (fun j => y (ix2 p j))) * (y (ix2 p j) - Cert.Gcn.rowMean (fun j => y (ix2 p j)))) + Cert.Gcn.eps32) := by
  show Ideal.rsqrt (muCol (mulf (dev y) (dev y)) (ix2 p (0 : Fin 1)) + Cert.Gcn.eps32) = _
  rw [muCol_apply]
  refine congrArg (fun f => Ideal.rsqrt (Cert.Gcn.rowMean f + Cert.Gcn.eps32)) (funext fun j => ?_)
  refine (mulf_apply _ _ _).trans ?_
  rw [dev_apply]

/-- The normalised block with gain and shift, then the maximum with the zero word. -/
def lnBlk (y : FVec Ideal S2000x128 .f32) (g lb : Vec Ideal S1x128 .f32) : FVec Ideal S2000x128 .f32 :=
  maximumf
    (addf
      (mulf (mulf (dev y) (broadcastTo S2000x128 (rstdCol y) broadcasts_S2000x1_S2000x128))
        (broadcastTo S2000x128 (shapeCast S1x128 g shapeCasts_S1x128_S1x128) broadcasts_S1x128_S2000x128))
      (broadcastTo S2000x128 (shapeCast S1x128 lb shapeCasts_S1x128_S1x128) broadcasts_S1x128_S2000x128))
    (broadcast S2000x128 (Scalar.ofBits (F := Ideal) .f32 0x00000000#32))

theorem lnBlk_apply (y : FVec Ideal S2000x128 .f32) (g lb : Vec Ideal S1x128 .f32) (p : Fin 2000) (q : Fin 128) :
    lnBlk y g lb (ix2 p q) = rowLN (fun j => y (ix2 p j)) (fun j => g (ix2 (0 : Fin 1) j)) (fun j => lb (ix2 (0 : Fin 1) j)) q := by
  show max (dev y (ix2 p q) * broadcastTo S2000x128 (rstdCol y) broadcasts_S2000x1_S2000x128 (ix2 p q)
        * broadcastTo S2000x128 (shapeCast S1x128 g shapeCasts_S1x128_S1x128) broadcasts_S1x128_S2000x128 (ix2 p q)
        + broadcastTo S2000x128 (shapeCast S1x128 lb shapeCasts_S1x128_S1x128) broadcasts_S1x128_S2000x128 (ix2 p q)) Cert.Gcn.zero32 = _
  rw [colrep_apply, rowrep_apply, rowrep_apply, rstdCol_apply, dev_apply]
  rfl

/-- The body's arithmetic is the normalisation of the linear map's block. -/
theorem pay_eq (x : Vec Ideal S2000x768 .f32) (w : Vec Ideal S768x128 .f32) (b g lb : Vec Ideal S1x128 .f32) :
    Gen.k0_pay1 (F := Ideal) x w b g lb = lnBlk (linBlk x w b) g lb := rfl

/-- Entry (p, q) of what the body stores: the one-row encoder of row `p` of the block, at column `q`. -/
theorem pay_apply (x : Vec Ideal S2000x768 .f32) (w : Vec Ideal S768x128 .f32) (b g lb : Vec Ideal S1x128 .f32) (p : Fin 2000) (q : Fin 128) :
    Gen.k0_pay1 (F := Ideal) x w b g lb (ix2 p q)
      = rowEnc (fun k => x (ix2 p k)) w (fun j => b (ix2 (0 : Fin 1) j)) (fun j => g (ix2 (0 : Fin 1) j)) (fun j => lb (ix2 (0 : Fin 1) j)) q := by
  rw [pay_eq, lnBlk_apply, rowEnc_eq]
  exact congrArg (fun f => rowLN f (fun j => g (ix2 (0 : Fin 1) j)) (fun j => lb (ix2 (0 : Fin 1) j)) q) (funext fun k => lin_apply x w b p k)

end Cert.KernelIdeal.RegionEnc

end
-- ==== Proof.RegionEnc.lean ====
/-
  The encoder region's output array after the region's run.

  Point `t` of the 50-point grid writes back, to rows 2000·t … 2000·t + 1999 of the output, what the body stored:
  at (p, q) the one-row encoder of row `p` of the feature block, which is row 2000·t + p of the feature array, with
  the weight, bias, gain and shift as the region finds them.  That is block `t` of the specification's encoder
  `Cert.Gcn.enc` of those arrays.  Row `r` of the output is covered by point r / 2000, so the blocks cover the array,
  and the array ends holding the encoder of the arrays the region found.
-/
import proofs.«167491_j8246337208594_1_alg».proof.Proof.RegionEncBlock
import proofs.«167491_j8246337208594_1_alg».proof.Proof.RegionEncPay

noncomputable section

namespace Cert.KernelIdeal.RegionEnc

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The one-row encoder depends only on the row, the weight and the three rows' entries. -/
theorem rowEnc_congr {xr xr' : Fin 768 → EReal} {w w' : FVec Ideal Cert.Gcn.SXH .f32} {b b' g g' lb lb' : Fin 128 → EReal} (q : Fin 128)
    (hx : ∀ k, xr k = xr' k) (hw : w = w') (hb : ∀ j, b j = b' j) (hg : ∀ j, g j = g' j) (hlb : ∀ j, lb j = lb' j) :
    rowEnc xr w b g lb q = rowEnc xr' w' b' g' lb' q := by
  obtain rfl : xr = xr' := funext hx
  obtain rfl := hw
  obtain rfl : b = b' := funext hb
  obtain rfl : g = g' := funext hg
  obtain rfl : lb = lb' := funext hlb
  rfl

/-- The encoder of the arrays as the region finds them: features, weight, and the bias, gain and shift rows. -/
abbrev encArr (c : Dev nD) : Buf (Elt Ideal) ((cfg0.win 5).arr.view.loc (c.tc : Thread nD τ)) :=
  Cert.Gcn.enc (V c (Pipeline.arrRef spec0 0)) (V c (Pipeline.arrRef spec0 1)) (fun j => V c (Pipeline.arrRef spec0 2) (ix2 0 j))
    (fun j => V c (Pipeline.arrRef spec0 3) (ix2 0 j)) (fun j => V c (Pipeline.arrRef spec0 4) (ix2 0 j))

/-- What point `t` writes back is block `t` of the encoder of the arrays. -/
theorem flushed_eq (c : Dev nD) (t : Fin cfg0.N) :
    (dat0 V c).flushed 5 t = ((cfg0.win 5).blk t).view.read (Elt Ideal) (encArr V c) := by
  show (cfg0.win 5).cut (grid0.coords t) ((dat0 V c).after 5 t) = _
  rw [after0_5]
  unfold out0_5
  rw [View.canon_unit_zero hz]
  simp only [View.ld_unit_zero (S := S2000x768) hz, View.ld_unit_zero (S := S768x128) hz, View.ld_unit_zero (S := S1x128) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = encArr V c (((cfg0.win 5).blk t).view.emb (ix2 p q))
  refine (pay_apply (iblk0 V c 0 t) (iblk0 V c 1 t) (iblk0 V c 2 t) (iblk0 V c 3 t) (iblk0 V c 4 t) p q).trans ?_
  refine Eq.trans ?_ (congrArg (encArr V c) (emb5 t p q)).symm
  refine (rowEnc_congr q (fun k => blk0_apply V c t p k) (blk1_eq V c t) (fun j => congrFun (blk2_eq V c t) (ix2 0 j))
    (fun j => congrFun (blk3_eq V c t) (ix2 0 j)) (fun j => congrFun (blk4_eq V c t) (ix2 0 j))).trans ?_
  exact (enc_row _ _ _ _ _ ⟨2000 * t.val + p.val, row_lt t p⟩ q).symm

/-- Every entry of the output array is in some point's block: row `r` in the block of point r / 2000. -/
theorem cover (i : S100000x128.Idx) : ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- THE OUTPUT ARRAY after the region: the specification's encoder of the arrays as the region finds them. -/
theorem enc_array (c : Dev nD) :
    (Gen.dat0 (F := Ideal) V c).arrAt 5 cfg0.N
      = Cert.Gcn.enc (V c (Pipeline.arrRef spec0 0)) (V c (Pipeline.arrRef spec0 1)) (fun j => V c (Pipeline.arrRef spec0 2) (ValueIdx.ix2 0 j))
          (fun j => V c (Pipeline.arrRef spec0 3) (ValueIdx.ix2 0 j)) (fun j => V c (Pipeline.arrRef spec0 4) (ValueIdx.ix2 0 j)) :=
  (dat0 V c).arrAt_eq_of_cover 5 (encArr V c) (fun t _ => flushed_eq V c t) cover

end Cert.KernelIdeal.RegionEnc

end
-- ==== Proof.RegionBlocks.lean ====
/-
  What the five dense regions share, at the extended reals.

  * A product of a [5000, 128] block with a [128, 128] weight into the zero accumulator, read at row `p` and
    column `q`, is the sum over the 128 contraction positions of the block's row `p` against the weight's column `q`.
  * A [1, 128] row repeated over 5000 rows reads, at `(p, q)`, the row's entry `q`.
  * The whole-block rectangle at offsets zero.
  * A row `r` below 100000 lies in the block of 5000 rows numbered `r / 5000`, at position `r % 5000` inside it.
-/
import proofs.«167491_j8246337208594_1_alg».proof.Proof.Gen.KernelIdeal.Frame
import proofs.«167491_j8246337208594_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionBlocks

open Cert.KernelIdeal Cert.KernelIdeal.Gen Idealize.ShloMosaic Idealize.ShloMosaic.ValueIdx
open scoped BigOperators

/-- The zero offsets of a whole-block access. -/
theorem hz : (![0, 0] : Fin 2 → Nat) = fun _ => 0 := funext fun a => by fin_cases a <;> rfl

/-- The left operand of the block product at output `j` and contraction position `q`: row of `j`. -/
theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column the contraction position. -/
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand: row the contraction position … -/
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and column of `j`. -/
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at `(p, q)`: ∑ₖ x(p, k) · w(k, q). -/
theorem matmul_at {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A [1, 128] row repeated over the 5000 rows reads the row's entry at the column. -/
theorem rowBroadcast_at {α : Type} (v : S1x128.Idx → α) (p : Fin 5000) (q : Fin 128) :
    broadcastTo S5000x128 v broadcasts_S1x128_S5000x128 (ix2 p q) = v (ix2 (0 : Fin 1) q) :=
  broadcastTo_1b_ab_apply v broadcasts_S1x128_S5000x128 p q

/-- Row `r` of the 100000 is row `r % 5000` of block `r / 5000`. -/
theorem row_split (r : Fin 100000) : r.val / 5000 < 20 ∧ r.val % 5000 < 5000 ∧ (r.val / 5000) * 5000 + r.val % 5000 = r.val := by
  have := r.isLt
  omega

end Cert.KernelIdeal.RegionBlocks

end
-- ==== Proof.RegionProj.lean ====
/-
  The fusion projection region: 20 points, point `t` multiplying rows 5000·t … 5000·t + 4999 of the embedding matrix by
  the first [128, 128] weight and the same rows of the encoded features by the second, adding the two products and the
  [1, 128] bias row, and writing the same rows of the result.  So entry (r, j) of the result is
  ∑ₖ e(r, k) · wa(k, j) + ∑ₖ f(r, k) · wb(k, j) + b(0, j): it depends on row r of the two matrices, on column j of the two
  weights and on the bias row only, and the 20 row blocks tile the 100000 rows.
-/
import proofs.«167491_j8246337208594_1_alg».proof.Proof.RegionBlocks

noncomputable section

namespace Cert.KernelIdeal.RegionProj

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The body's arithmetic at `(p, q)`: the format changes are the identity on extended reals, each product into the
    zero accumulator is the sum over its contraction, the bias row is read at the column. -/
theorem pay_at (x0 x1 : Vec Ideal S5000x128 .f32) (wa wb : Vec Ideal S128x128 .f32) (b : Vec Ideal S1x128 .f32) (p : Fin 5000) (q : Fin 128) :
    k1_pay1 (F := Ideal) x0 x1 wa wb b (ix2 p q)
      = ((∑ k : Fin 128, x0 (ix2 p k) * wa (ix2 k q)) + (∑ k : Fin 128, x1 (ix2 p k) * wb (ix2 k q))) + b (ix2 (0 : Fin 1) q) := by
  unfold k1_pay1
  simp only [shapeCast_self]
  show (matmul dot_S5000x128_S128x128_S5000x128_1_0_0_1_n_n none (truncf .bf16 x0 bitsLt_bf16_f32) (truncf .bf16 wa bitsLt_bf16_f32) (constant (F := Ideal) S5000x128 .f32 0x00000000#32) (ix2 p q)
      + matmul dot_S5000x128_S128x128_S5000x128_1_0_0_1_n_n none (truncf .bf16 x1 bitsLt_bf16_f32) (truncf .bf16 wb bitsLt_bf16_f32) (constant (F := Ideal) S5000x128 .f32 0x00000000#32) (ix2 p q))
      + broadcastTo S5000x128 b broadcasts_S1x128_S5000x128 (ix2 p q) = _
  rw [RegionBlocks.matmul_at, RegionBlocks.matmul_at, RegionBlocks.rowBroadcast_at]
  rfl

/-- The body's arithmetic on blocks whose rows are rows of `A0` and `A1`, whose weights are `A2` and `A3` and whose bias
    row is `A4`'s, at `(p, q)`: the projection's entry at the row `r` the blocks' row `p` came from. -/
theorem pay_point (A0 A1 : FVec Ideal Cert.Gcn.SNH .f32) (A2 A3 : S128x128.Idx → EReal) (A4 : S1x128.Idx → EReal)
    (x0 x1 : Vec Ideal S5000x128 .f32) (wa wb : Vec Ideal S128x128 .f32) (b : Vec Ideal S1x128 .f32) (p : Fin 5000) (q : Fin 128) (r : Fin 100000)
    (hx0 : ∀ k : Fin 128, x0 (ix2 p k) = A0 (ix2 r k)) (hx1 : ∀ k : Fin 128, x1 (ix2 p k) = A1 (ix2 r k))
    (hwa : ∀ k : Fin 128, wa (ix2 k q) = A2 (ix2 k q)) (hwb : ∀ k : Fin 128, wb (ix2 k q) = A3 (ix2 k q))
    (hb : b (ix2 (0 : Fin 1) q) = A4 (ix2 (0 : Fin 1) q)) :
    k1_pay1 (F := Ideal) x0 x1 wa wb b (ix2 p q)
      = Cert.Gcn.proj A0 A1 (fun k j => A2 (ix2 k j)) (fun k j => A3 (ix2 k j)) (fun j => A4 (ix2 (0 : Fin 1) j)) (ix2 r q) := by
  rw [pay_at, hb]
  show _ = ((∑ k : Fin 128, A0 (ix2 r k) * A2 (ix2 k q)) + (∑ k : Fin 128, A1 (ix2 r k) * A3 (ix2 k q))) + A4 (ix2 (0 : Fin 1) q)
  rw [Finset.sum_congr rfl fun k _ => show x0 (ix2 p k) * wa (ix2 k q) = A0 (ix2 r k) * A2 (ix2 k q) by rw [hx0 k, hwa k],
    Finset.sum_congr rfl fun k _ => show x1 (ix2 p k) * wb (ix2 k q) = A1 (ix2 r k) * A3 (ix2 k q) by rw [hx1 k, hwb k]]

/-- The printed index maps over the grid: the three row windows sit at block `t`, the weights and the bias row at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 :=
  lt_of_lt_of_eq t.isLt N_1

/-- Window 0's block at point `t` holds rows 5000·t … 5000·t + 4999 of its array. -/
theorem rows0_at (c : Dev nD) (t : Fin cfg1.N) (p : Fin 5000) (k : Fin 128) (h : t.val * 5000 + p.val < 100000) :
    iblk1 V c 0 t (ix2 p k) = V c (Pipeline.arrRef spec1 0) (ix2 (⟨t.val * 5000 + p.val, h⟩ : Fin 100000) k) := by
  obtain ⟨e00, e01, e10, e11, e20, e21, e30, e31, e40, e41, e50, e51⟩ := idx_facts t
  have hk := k.isLt
  unfold iblk1
  rw [View.read_apply]
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1's block at point `t` holds rows 5000·t … 5000·t + 4999 of its array. -/
theorem rows1_at (c : Dev nD) (t : Fin cfg1.N) (p : Fin 5000) (k : Fin 128) (h : t.val * 5000 + p.val < 100000) :
    iblk1 V c 1 t (ix2 p k) = V c (Pipeline.arrRef spec1 1) (ix2 (⟨t.val * 5000 + p.val, h⟩ : Fin 100000) k) := by
  obtain ⟨e00, e01, e10, e11, e20, e21, e30, e31, e40, e41, e50, e51⟩ := idx_facts t
  have hk := k.isLt
  unfold iblk1
  rw [View.read_apply]
  refine congrArg (V c (Pipeline.arrRef spec1 1)) ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2's block at every point is its whole [128, 128] array. -/
theorem weight2_at (c : Dev nD) (t : Fin cfg1.N) (k : Fin 128) (q : Fin 128) :
    iblk1 V c 2 t (ix2 k q) = V c (Pipeline.arrRef spec1 2) (ix2 k q) := by
  obtain ⟨e00, e01, e10, e11, e20, e21, e30, e31, e40, e41, e50, e51⟩ := idx_facts t
  have hk := k.isLt
  have hq := q.isLt
  unfold iblk1
  rw [View.read_apply]
  refine congrArg (V c (Pipeline.arrRef spec1 2)) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Window 3's block at every point is its whole [128, 128] array. -/
theorem weight3_at (c : Dev nD) (t : Fin cfg1.N) (k : Fin 128) (q : Fin 128) :
    iblk1 V c 3 t (ix2 k q) = V c (Pipeline.arrRef spec1 3) (ix2 k q) := by
  obtain ⟨e00, e01, e10, e11, e20, e21, e30, e31, e40, e41, e50, e51⟩ := idx_facts t
  have hk := k.isLt
  have hq := q.isLt
  unfold iblk1
  rw [View.read_apply]
  refine congrArg (V c (Pipeline.arrRef spec1 3)) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Window 4's block at every point is its whole [1, 128] row. -/
theorem bias_at (c : Dev nD) (t : Fin cfg1.N) (q : Fin 128) :
    iblk1 V c 4 t (ix2 (0 : Fin 1) q) = V c (Pipeline.arrRef spec1 4) (ix2 (0 : Fin 1) q) := by
  obtain ⟨e00, e01, e10, e11, e20, e21, e30, e31, e40, e41, e50, e51⟩ := idx_facts t
  have hq := q.isLt
  unfold iblk1
  rw [View.read_apply]
  refine congrArg (V c (Pipeline.arrRef spec1 4)) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- The output block at point `t` sits at rows 5000·t … 5000·t + 4999 of the result. -/
theorem emb_out (t : Fin cfg1.N) (p : Fin 5000) (q : Fin 128) (h : t.val * 5000 + p.val < 100000) :
    ((cfg1.win 5).blk t).view.emb (ix2 p q) = ix2 (⟨t.val * 5000 + p.val, h⟩ : Fin 100000) q := by
  obtain ⟨e00, e01, e10, e11, e20, e21, e30, e31, e40, e41, e50, e51⟩ := idx_facts t
  have hq := q.isLt
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- WHAT POINT `t` WRITES BACK is block `t` of any array `g` whose entry at row 5000·t + p and column q is the body's
    arithmetic on the point's blocks at `(p, q)`. -/
theorem flushed_of (c : Dev nD) (t : Fin cfg1.N) (g : S100000x128.Idx → EReal)
    (hg : ∀ (p : Fin 5000) (q : Fin 128) (hr : t.val * 5000 + p.val < 100000),
      k1_pay1 (F := Ideal) (iblk1 V c 0 t) (iblk1 V c 1 t) (iblk1 V c 2 t) (iblk1 V c 3 t) (iblk1 V c 4 t) (ix2 p q) = g (ix2 (⟨t.val * 5000 + p.val, hr⟩ : Fin 100000) q)) :
    (dat1 (F := Ideal) V c).flushed 5 t = ((cfg1.win 5).blk t).view.read (Elt Ideal) g := by
  show (cfg1.win 5).cut (grid1.coords t) ((dat1 (F := Ideal) V c).after 5 t) = _
  rw [after1_5]
  unfold out1_5
  rw [View.canon_unit_zero RegionBlocks.hz]
  simp only [View.ld_unit_zero (S := S5000x128) RegionBlocks.hz, View.ld_unit_zero (S := S128x128) RegionBlocks.hz, View.ld_unit_zero (S := S1x128) RegionBlocks.hz]
  have ht := t_lt t
  funext j
  obtain ⟨p, q, rfl⟩ : ∃ (p : Fin 5000) (q : Fin 128), j = ix2 p q := ⟨j 0, j 1, eq_ix2 j⟩
  have hp := p.isLt
  have hr : t.val * 5000 + p.val < 100000 := by omega
  show k1_pay1 (F := Ideal) (iblk1 V c 0 t) (iblk1 V c 1 t) (iblk1 V c 2 t) (iblk1 V c 3 t) (iblk1 V c 4 t) (ix2 p q) = g (((cfg1.win 5).blk t).view.emb (ix2 p q))
  rw [emb_out t p q hr]
  exact hg p q hr

/-- WHAT POINT `t` WRITES BACK is block `t` of the region's array. -/
theorem flushed_eq (c : Dev nD) (t : Fin cfg1.N) :
    (dat1 (F := Ideal) V c).flushed 5 t = ((cfg1.win 5).blk t).view.read (Elt Ideal)
      (Cert.Gcn.proj (V c (Pipeline.arrRef spec1 0)) (V c (Pipeline.arrRef spec1 1)) (fun k j => (V c (Pipeline.arrRef spec1 2) : S128x128.Idx → EReal) (ix2 k j)) (fun k j => (V c (Pipeline.arrRef spec1 3) : S128x128.Idx → EReal) (ix2 k j)) (fun j => (V c (Pipeline.arrRef spec1 4) : S1x128.Idx → EReal) (ix2 (0 : Fin 1) j))) :=
  flushed_of V c t _ (fun p q hr => pay_point (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) p q ⟨t.val * 5000 + p.val, hr⟩
    (fun k => rows0_at V c t p k hr) (fun k => rows1_at V c t p k hr) (fun k => weight2_at V c t k q) (fun k => weight3_at V c t k q) (bias_at V c t q))

/-- An index of the result is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Row `r` is written by point `r / 5000`: the 20 row blocks tile the result. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨e00, e01, e10, e11, e20, e21, e30, e31, e40, e41, e50, e51⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- THE RESULT ARRAY after the region, as one function of the arrays the region found. -/
theorem proj_array (c : Dev nD) :
    (dat1 (F := Ideal) V c).arrAt 5 cfg1.N = Cert.Gcn.proj (V c (Pipeline.arrRef spec1 0)) (V c (Pipeline.arrRef spec1 1)) (fun k j => (V c (Pipeline.arrRef spec1 2) : S128x128.Idx → EReal) (ix2 k j)) (fun k j => (V c (Pipeline.arrRef spec1 3) : S128x128.Idx → EReal) (ix2 k j)) (fun j => (V c (Pipeline.arrRef spec1 4) : S1x128.Idx → EReal) (ix2 (0 : Fin 1) j)) :=
  (dat1 (F := Ideal) V c).arrAt_eq_of_cover 5 (Cert.Gcn.proj (V c (Pipeline.arrRef spec1 0)) (V c (Pipeline.arrRef spec1 1)) (fun k j => (V c (Pipeline.arrRef spec1 2) : S128x128.Idx → EReal) (ix2 k j)) (fun k j => (V c (Pipeline.arrRef spec1 3) : S128x128.Idx → EReal) (ix2 k j)) (fun j => (V c (Pipeline.arrRef spec1 4) : S1x128.Idx → EReal) (ix2 (0 : Fin 1) j)))
    (fun t _ => flushed_eq V c t) cover

end Cert.KernelIdeal.RegionProj

end
-- ==== Proof.RegionMm.lean ====
/-
  The plain product region: 20 points, point `t` multiplying rows 5000·t … 5000·t + 4999 of the node matrix by the whole
  [128, 128] weight and writing the same rows of the result.  So entry (r, j) of the result is ∑ₖ x(r, k) · w(k, j):
  it depends on row r of x and column j of w only, and the 20 row blocks tile the 100000 rows.
-/
import proofs.«167491_j8246337208594_1_alg».proof.Proof.RegionBlocks

noncomputable section

namespace Cert.KernelIdeal.RegionMm

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The body's arithmetic at `(p, q)`: the two format changes are the identity on extended reals, the product into
    the zero accumulator is the sum over the contraction. -/
theorem pay_at (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  simp only [shapeCast_self]
  exact RegionBlocks.matmul_at (φ₁ := .bf16) (φ₂ := .bf16) _ _ p q

/-- The body's arithmetic on a block whose rows are rows of `A0` and whose weight is `A1`, at `(p, q)`: the
    product's entry at the row `r` the block's row `p` came from. -/
theorem pay_point (A0 : FVec Ideal Cert.Gcn.SNH .f32) (A1 : FVec Ideal Cert.Gcn.SHH .f32)
    (x : Vec Ideal S5000x128 .f32) (w : Vec Ideal S128x128 .f32) (p : Fin 5000) (q : Fin 128) (r : Fin 100000)
    (hx : ∀ k : Fin 128, x (ix2 p k) = A0 (ix2 r k)) (hw : ∀ k : Fin 128, w (ix2 k q) = A1 (ix2 k q)) :
    k2_pay1 (F := Ideal) x w (ix2 p q) = Cert.Gcn.mm A0 A1 (ix2 r q) := by
  rw [pay_at]
  show _ = ∑ k : Fin 128, A0 (ix2 r k) * A1 (ix2 k q)
  exact Finset.sum_congr rfl fun k _ => by rw [hx k, hw k]

/-- The printed index maps over the grid: the row windows sit at block `t`, the weight at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 20 :=
  lt_of_lt_of_eq t.isLt N_2

/-- WHAT POINT `t` WRITES BACK is block `t` of the product of the arrays as the region finds them. -/
theorem flushed_eq (c : Dev nD) (t : Fin cfg2.N) :
    (dat2 (F := Ideal) V c).flushed 2 t = ((cfg2.win 2).blk t).view.read (Elt Ideal)
      (Cert.Gcn.mm (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero RegionBlocks.hz]
  simp only [View.ld_unit_zero (S := S5000x128) RegionBlocks.hz, View.ld_unit_zero (S := S128x128) RegionBlocks.hz]
  obtain ⟨e00, e01, e10, e11, e20, e21⟩ := idx_facts t
  have ht := t_lt t
  funext j
  obtain ⟨p, q, rfl⟩ : ∃ (p : Fin 5000) (q : Fin 128), j = ix2 p q := ⟨j 0, j 1, eq_ix2 j⟩
  have hp := p.isLt
  have hq := q.isLt
  show k2_pay1 (F := Ideal) (iblk2 V c 0 t) (iblk2 V c 1 t) (ix2 p q)
    = Cert.Gcn.mm (V c (Pipeline.arrRef spec2 0)) (V c (Pipeline.arrRef spec2 1)) (((cfg2.win 2).blk t).view.emb (ix2 p q))
  have hemb : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hemb]
  refine pay_point (V c (Pipeline.arrRef spec2 0)) (V c (Pipeline.arrRef spec2 1)) (iblk2 V c 0 t) (iblk2 V c 1 t) p q ⟨t.val * 5000 + p.val, by omega⟩ (fun k => ?_) (fun k => ?_)
  · have hk := k.isLt
    unfold iblk2
    rw [View.read_apply]
    refine congrArg (V c (Pipeline.arrRef spec2 0)) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · have hk := k.isLt
    unfold iblk2
    rw [View.read_apply]
    refine congrArg (V c (Pipeline.arrRef spec2 1)) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the result is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v38).slice (win2_2.rect t)).set ↔ _
  rw [View.set_slice_whole, Rect.mem_set_unit]
  exact Iff.rfl

/-- Row `r` is written by point `r / 5000`: the 20 row blocks tile the result. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk]
  obtain ⟨e00, e01, e10, e11, e20, e21⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e21]; omega

/-- THE RESULT ARRAY after the region: the product of the two arrays the region found. -/
theorem mm_array (c : Dev nD) :
    (dat2 (F := Ideal) V c).arrAt 2 cfg2.N = Cert.Gcn.mm (V c (Pipeline.arrRef spec2 0)) (V c (Pipeline.arrRef spec2 1)) :=
  (dat2 (F := Ideal) V c).arrAt_eq_of_cover 2 (Cert.Gcn.mm (V c (Pipeline.arrRef spec2 0)) (V c (Pipeline.arrRef spec2 1)))
    (fun t _ => flushed_eq V c t) cover

end Cert.KernelIdeal.RegionMm

end
-- ==== Proof.RegionAct3.lean ====
/-
  A hidden layer's dense region: 20 points, point `t` adding the [1, 128] bias row to rows 5000·t … 5000·t + 4999 of the
  aggregated matrix, taking the maximum with zero, multiplying by the whole [128, 128] weight and writing the same rows
  of the result.  So entry (r, j) of the result is ∑ₖ max (s(r, k) + b(0, k)) 0 · w(k, j): it depends on row r of s, on
  the bias row and on column j of w only, and the 20 row blocks tile the 100000 rows.
-/
import proofs.«167491_j8246337208594_1_alg».proof.Proof.RegionBlocks

noncomputable section

namespace Cert.KernelIdeal.RegionAct3

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The body's arithmetic at `(p, q)`: the format changes are the identity on extended reals, the bias row is read at
    the contraction position, the product into the zero accumulator is the sum over the contraction. -/
theorem pay_at (x : Vec Ideal S5000x128 .f32) (b : Vec Ideal S1x128 .f32) (w : Vec Ideal S128x128 .f32) (p : Fin 5000) (q : Fin 128) :
    k3_pay1 (F := Ideal) x b w (ix2 p q)
      = ∑ k : Fin 128, max (x (ix2 p k) + b (ix2 (0 : Fin 1) k)) Cert.Gcn.zero32 * w (ix2 k q) := by
  unfold k3_pay1
  simp only [shapeCast_self]
  refine (RegionBlocks.matmul_at (φ₁ := .bf16) (φ₂ := .bf16) _ _ p q).trans ?_
  refine Finset.sum_congr rfl fun k _ => ?_
  show max (x (ix2 p k) + broadcastTo S5000x128 b broadcasts_S1x128_S5000x128 (ix2 p k)) _ * _ = _
  rw [RegionBlocks.rowBroadcast_at]
  rfl

/-- The body's arithmetic on a block whose rows are rows of `A0`, whose bias row is `A1`'s and whose weight is `A2`,
    at `(p, q)`: the layer's entry at the row `r` the block's row `p` came from. -/
theorem pay_point (A0 : FVec Ideal Cert.Gcn.SNH .f32) (A1 : S1x128.Idx → EReal) (A2 : FVec Ideal Cert.Gcn.SHH .f32)
    (x : Vec Ideal S5000x128 .f32) (b : Vec Ideal S1x128 .f32) (w : Vec Ideal S128x128 .f32) (p : Fin 5000) (q : Fin 128) (r : Fin 100000)
    (hx : ∀ k : Fin 128, x (ix2 p k) = A0 (ix2 r k)) (hb : ∀ k : Fin 128, b (ix2 (0 : Fin 1) k) = A1 (ix2 (0 : Fin 1) k))
    (hw : ∀ k : Fin 128, w (ix2 k q) = A2 (ix2 k q)) :
    k3_pay1 (F := Ideal) x b w (ix2 p q) = Cert.Gcn.actmm A0 (fun j => A1 (ix2 (0 : Fin 1) j)) A2 (ix2 r q) := by
  rw [pay_at]
  show _ = ∑ k : Fin 128, max (A0 (ix2 r k) + A1 (ix2 (0 : Fin 1) k)) Cert.Gcn.zero32 * A2 (ix2 k q)
  exact Finset.sum_congr rfl fun k _ => by rw [hx k, hb k, hw k]

/-- The printed index maps over the grid: the row windows sit at block `t`, the bias row and the weight at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem t_lt (t : Fin cfg3.N) : t.val < 20 :=
  lt_of_lt_of_eq t.isLt N_3

/-- Window 0's block at point `t` holds rows 5000·t … 5000·t + 4999 of its array. -/
theorem rows_at (c : Dev nD) (t : Fin cfg3.N) (p : Fin 5000) (k : Fin 128) (h : t.val * 5000 + p.val < 100000) :
    iblk3 V c 0 t (ix2 p k) = V c (Pipeline.arrRef spec3 0) (ix2 (⟨t.val * 5000 + p.val, h⟩ : Fin 100000) k) := by
  obtain ⟨e00, e01, e10, e11, e20, e21, e30, e31⟩ := idx_facts t
  have hk := k.isLt
  unfold iblk3
  rw [View.read_apply]
  refine congrArg (V c (Pipeline.arrRef spec3 0)) ?_
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- Window 1's block at every point is its whole [1, 128] row. -/
theorem bias_at (c : Dev nD) (t : Fin cfg3.N) (q : Fin 128) :
    iblk3 V c 1 t (ix2 (0 : Fin 1) q) = V c (Pipeline.arrRef spec3 1) (ix2 (0 : Fin 1) q) := by
  obtain ⟨e00, e01, e10, e11, e20, e21, e30, e31⟩ := idx_facts t
  have hq := q.isLt
  unfold iblk3
  rw [View.read_apply]
  refine congrArg (V c (Pipeline.arrRef spec3 1)) ?_
  funext a; apply Fin.ext
  match a with
  | ⟨0, _⟩ => show win3_1.index t (0 : Fin 2) * 1 + 1 * (0 : Fin 1).val = (0 : Fin 1).val; omega
  | ⟨1, _⟩ => show win3_1.index t (1 : Fin 2) * 128 + 1 * q.val = q.val; omega

/-- Window 2's block at every point is its whole [128, 128] array. -/
theorem weight_at (c : Dev nD) (t : Fin cfg3.N) (k : Fin 128) (q : Fin 128) :
    iblk3 V c 2 t (ix2 k q) = V c (Pipeline.arrRef spec3 2) (ix2 k q) := by
  obtain ⟨e00, e01, e10, e11, e20, e21, e30, e31⟩ := idx_facts t
  have hk := k.isLt
  have hq := q.isLt
  unfold iblk3
  rw [View.read_apply]
  refine congrArg (V c (Pipeline.arrRef spec3 2)) ?_
  funext a; apply Fin.ext
  match a with
  | ⟨0, _⟩ => show win3_2.index t (0 : Fin 2) * 128 + 1 * k.val = k.val; omega
  | ⟨1, _⟩ => show win3_2.index t (1 : Fin 2) * 128 + 1 * q.val = q.val; omega

/-- The output block at point `t` sits at rows 5000·t … 5000·t + 4999 of the result. -/
theorem emb_out (t : Fin cfg3.N) (p : Fin 5000) (q : Fin 128) (h : t.val * 5000 + p.val < 100000) :
    ((cfg3.win 3).blk t).view.emb (ix2 p q) = ix2 (⟨t.val * 5000 + p.val, h⟩ : Fin 100000) q := by
  obtain ⟨e00, e01, e10, e11, e20, e21, e30, e31⟩ := idx_facts t
  have hq := q.isLt
  funext a; apply Fin.ext
  match a with
  | ⟨0, _⟩ => show win3_3.index t (0 : Fin 2) * 5000 + 1 * p.val = t.val * 5000 + p.val; omega
  | ⟨1, _⟩ => show win3_3.index t (1 : Fin 2) * 128 + 1 * q.val = q.val; omega

/-- WHAT POINT `t` WRITES BACK is block `t` of that array. -/
theorem flushed_eq (c : Dev nD) (t : Fin cfg3.N) :
    (dat3 (F := Ideal) V c).flushed 3 t = ((cfg3.win 3).blk t).view.read (Elt Ideal)
      (Cert.Gcn.actmm (V c (Pipeline.arrRef spec3 0)) (fun j => (V c (Pipeline.arrRef spec3 1) : S1x128.Idx → EReal) (ix2 (0 : Fin 1) j)) (V c (Pipeline.arrRef spec3 2))) := by
  show (cfg3.win 3).cut (grid3.coords t) ((dat3 (F := Ideal) V c).after 3 t) = _
  rw [after3_3]
  unfold out3_3
  rw [View.canon_unit_zero RegionBlocks.hz]
  simp only [View.ld_unit_zero (S := S5000x128) RegionBlocks.hz, View.ld_unit_zero (S := S1x128) RegionBlocks.hz, View.ld_unit_zero (S := S128x128) RegionBlocks.hz]
  have ht := t_lt t
  funext j
  obtain ⟨p, q, rfl⟩ : ∃ (p : Fin 5000) (q : Fin 128), j = ix2 p q := ⟨j 0, j 1, eq_ix2 j⟩
  have hp := p.isLt
  have hr : t.val * 5000 + p.val < 100000 := by omega
  rw [View.read_apply]
  refine Eq.trans ?_ (congrArg (Cert.Gcn.actmm (V c (Pipeline.arrRef spec3 0)) (fun j => (V c (Pipeline.arrRef spec3 1) : S1x128.Idx → EReal) (ix2 (0 : Fin 1) j)) (V c (Pipeline.arrRef spec3 2))) (emb_out t p q hr).symm)
  exact pay_point (V c (Pipeline.arrRef spec3 0)) (V c (Pipeline.arrRef spec3 1)) (V c (Pipeline.arrRef spec3 2)) (iblk3 V c 0 t) (iblk3 V c 1 t) (iblk3 V c 2 t) p q ⟨t.val * 5000 + p.val, hr⟩
    (fun k => rows_at V c t p k hr) (fun k => bias_at V c t k) (fun k => weight_at V c t k q)

/-- An index of the result is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v53).slice (win3_3.rect t)).set ↔ _
  rw [View.set_slice_whole, Rect.mem_set_unit]
  exact Iff.rfl

/-- Row `r` is written by point `r / 5000`: the 20 row blocks tile the result. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_3 _, ?_⟩
  rw [mem_blk]
  obtain ⟨e00, e01, e10, e11, e20, e21, e30, e31⟩ := idx_facts ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e30]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e31]; omega

/-- THE RESULT ARRAY after the region, as one function of the arrays the region found. -/
theorem actmm_array (c : Dev nD) :
    (dat3 (F := Ideal) V c).arrAt 3 cfg3.N = Cert.Gcn.actmm (V c (Pipeline.arrRef spec3 0)) (fun j => (V c (Pipeline.arrRef spec3 1) : S1x128.Idx → EReal) (ix2 (0 : Fin 1) j)) (V c (Pipeline.arrRef spec3 2)) :=
  (dat3 (F := Ideal) V c).arrAt_eq_of_cover 3 (Cert.Gcn.actmm (V c (Pipeline.arrRef spec3 0)) (fun j => (V c (Pipeline.arrRef spec3 1) : S1x128.Idx → EReal) (ix2 (0 : Fin 1) j)) (V c (Pipeline.arrRef spec3 2)))
    (fun t _ => flushed_eq V c t) cover

end Cert.KernelIdeal.RegionAct3

end
-- ==== Proof.RegionAct4.lean ====
/-
  A hidden layer's dense region: 20 points, point `t` adding the [1, 128] bias row to rows 5000·t … 5000·t + 4999 of the
  aggregated matrix, taking the maximum with zero, multiplying by the whole [128, 128] weight and writing the same rows
  of the result.  So entry (r, j) of the result is ∑ₖ max (s(r, k) + b(0, k)) 0 · w(k, j): it depends on row r of s, on
  the bias row and on column j of w only, and the 20 row blocks tile the 100000 rows.
-/
import proofs.«167491_j8246337208594_1_alg».proof.Proof.RegionBlocks

noncomputable section

namespace Cert.KernelIdeal.RegionAct4

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The body's arithmetic at `(p, q)`: the format changes are the identity on extended reals, the bias row is read at
    the contraction position, the product into the zero accumulator is the sum over the contraction. -/
theorem pay_at (x : Vec Ideal S5000x128 .f32) (b : Vec Ideal S1x128 .f32) (w : Vec Ideal S128x128 .f32) (p : Fin 5000) (q : Fin 128) :
    k4_pay1 (F := Ideal) x b w (ix2 p q)
      = ∑ k : Fin 128, max (x (ix2 p k) + b (ix2 (0 : Fin 1) k)) Cert.Gcn.zero32 * w (ix2 k q) := by
  unfold k4_pay1
  simp only [shapeCast_self]
  refine (RegionBlocks.matmul_at (φ₁ := .bf16) (φ₂ := .bf16) _ _ p q).trans ?_
  refine Finset.sum_congr rfl fun k _ => ?_
  show max (x (ix2 p k) + broadcastTo S5000x128 b broadcasts_S1x128_S5000x128 (ix2 p k)) _ * _ = _
  rw [RegionBlocks.rowBroadcast_at]
  rfl

/-- The body's arithmetic on a block whose rows are rows of `A0`, whose bias row is `A1`'s and whose weight is `A2`,
    at `(p, q)`: the layer's entry at the row `r` the block's row `p` came from. -/
theorem pay_point (A0 : FVec Ideal Cert.Gcn.SNH .f32) (A1 : S1x128.Idx → EReal) (A2 : FVec Ideal Cert.Gcn.SHH .f32)
    (x : Vec Ideal S5000x128 .f32) (b : Vec Ideal S1x128 .f32) (w : Vec Ideal S128x128 .f32) (p : Fin 5000) (q : Fin 128) (r : Fin 100000)
    (hx : ∀ k : Fin 128, x (ix2 p k) = A0 (ix2 r k)) (hb : ∀ k : Fin 128, b (ix2 (0 : Fin 1) k) = A1 (ix2 (0 : Fin 1) k))
    (hw : ∀ k : Fin 128, w (ix2 k q) = A2 (ix2 k q)) :
    k4_pay1 (F := Ideal) x b w (ix2 p q) = Cert.Gcn.actmm A0 (fun j => A1 (ix2 (0 : Fin 1) j)) A2 (ix2 r q) := by
  rw [pay_at]
  show _ = ∑ k : Fin 128, max (A0 (ix2 r k) + A1 (ix2 (0 : Fin 1) k)) Cert.Gcn.zero32 * A2 (ix2 k q)
  exact Finset.sum_congr rfl fun k _ => by rw [hx k, hb k, hw k]

/-- The printed index maps over the grid: the row windows sit at block `t`, the bias row and the weight at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem t_lt (t : Fin cfg4.N) : t.val < 20 :=
  lt_of_lt_of_eq t.isLt N_4

/-- Window 0's block at point `t` holds rows 5000·t … 5000·t + 4999 of its array. -/
theorem rows_at (c : Dev nD) (t : Fin cfg4.N) (p : Fin 5000) (k : Fin 128) (h : t.val * 5000 + p.val < 100000) :
    iblk4 V c 0 t (ix2 p k) = V c (Pipeline.arrRef spec4 0) (ix2 (⟨t.val * 5000 + p.val, h⟩ : Fin 100000) k) := by
  obtain ⟨e00, e01, e10, e11, e20, e21, e30, e31⟩ := idx_facts t
  have hk := k.isLt
  unfold iblk4
  rw [View.read_apply]
  refine congrArg (V c (Pipeline.arrRef spec4 0)) ?_
  funext a; apply Fin.ext
  match a with
  | ⟨0, _⟩ => show win4_0.index t (0 : Fin 2) * 5000 + 1 * p.val = t.val * 5000 + p.val; omega
  | ⟨1, _⟩ => show win4_0.index t (1 : Fin 2) * 128 + 1 * k.val = k.val; omega

/-- Window 1's block at every point is its whole [1, 128] row. -/
theorem bias_at (c : Dev nD) (t : Fin cfg4.N) (q : Fin 128) :
    iblk4 V c 1 t (ix2 (0 : Fin 1) q) = V c (Pipeline.arrRef spec4 1) (ix2 (0 : Fin 1) q) := by
  obtain ⟨e00, e01, e10, e11, e20, e21, e30, e31⟩ := idx_facts t
  have hq := q.isLt
  unfold iblk4
  rw [View.read_apply]
  refine congrArg (V c (Pipeline.arrRef spec4 1)) ?_
  funext a; apply Fin.ext
  match a with
  | ⟨0, _⟩ => show win4_1.index t (0 : Fin 2) * 1 + 1 * (0 : Fin 1).val = (0 : Fin 1).val; omega
  | ⟨1, _⟩ => show win4_1.index t (1 : Fin 2) * 128 + 1 * q.val = q.val; omega

/-- Window 2's block at every point is its whole [128, 128] array. -/
theorem weight_at (c : Dev nD) (t : Fin cfg4.N) (k : Fin 128) (q : Fin 128) :
    iblk4 V c 2 t (ix2 k q) = V c (Pipeline.arrRef spec4 2) (ix2 k q) := by
  obtain ⟨e00, e01, e10, e11, e20, e21, e30, e31⟩ := idx_facts t
  have hk := k.isLt
  have hq := q.isLt
  unfold iblk4
  rw [View.read_apply]
  refine congrArg (V c (Pipeline.arrRef spec4 2)) ?_
  funext a; apply Fin.ext
  match a with
  | ⟨0, _⟩ => show win4_2.index t (0 : Fin 2) * 128 + 1 * k.val = k.val; omega
  | ⟨1, _⟩ => show win4_2.index t (1 : Fin 2) * 128 + 1 * q.val = q.val; omega

/-- The output block at point `t` sits at rows 5000·t … 5000·t + 4999 of the result. -/
theorem emb_out (t : Fin cfg4.N) (p : Fin 5000) (q : Fin 128) (h : t.val * 5000 + p.val < 100000) :
    ((cfg4.win 3).blk t).view.emb (ix2 p q) = ix2 (⟨t.val * 5000 + p.val, h⟩ : Fin 100000) q := by
  obtain ⟨e00, e01, e10, e11, e20, e21, e30, e31⟩ := idx_facts t
  have hq := q.isLt
  funext a; apply Fin.ext
  match a with
  | ⟨0, _⟩ => show win4_3.index t (0 : Fin 2) * 5000 + 1 * p.val = t.val * 5000 + p.val; omega
  | ⟨1, _⟩ => show win4_3.index t (1 : Fin 2) * 128 + 1 * q.val = q.val; omega

/-- WHAT POINT `t` WRITES BACK is block `t` of any array `g` whose entry at row 5000·t + p and column q is the body's
    arithmetic on the point's blocks at `(p, q)`. -/
theorem flushed_of (c : Dev nD) (t : Fin cfg4.N) (g : S100000x128.Idx → EReal)
    (hg : ∀ (p : Fin 5000) (q : Fin 128) (hr : t.val * 5000 + p.val < 100000),
      k4_pay1 (F := Ideal) (iblk4 V c 0 t) (iblk4 V c 1 t) (iblk4 V c 2 t) (ix2 p q) = g (ix2 (⟨t.val * 5000 + p.val, hr⟩ : Fin 100000) q)) :
    (dat4 (F := Ideal) V c).flushed 3 t = ((cfg4.win 3).blk t).view.read (Elt Ideal) g := by
  show (cfg4.win 3).cut (grid4.coords t) ((dat4 (F := Ideal) V c).after 3 t) = _
  rw [after4_3]
  unfold out4_3
  rw [View.canon_unit_zero RegionBlocks.hz]
  simp only [View.ld_unit_zero (S := S5000x128) RegionBlocks.hz, View.ld_unit_zero (S := S1x128) RegionBlocks.hz, View.ld_unit_zero (S := S128x128) RegionBlocks.hz]
  have ht := t_lt t
  funext j
  obtain ⟨p, q, rfl⟩ : ∃ (p : Fin 5000) (q : Fin 128), j = ix2 p q := ⟨j 0, j 1, eq_ix2 j⟩
  have hp := p.isLt
  have hr : t.val * 5000 + p.val < 100000 := by omega
  show k4_pay1 (F := Ideal) (iblk4 V c 0 t) (iblk4 V c 1 t) (iblk4 V c 2 t) (ix2 p q) = g (((cfg4.win 3).blk t).view.emb (ix2 p q))
  rw [emb_out t p q hr]
  exact hg p q hr

/-- WHAT POINT `t` WRITES BACK is block `t` of the region's array. -/
theorem flushed_eq (c : Dev nD) (t : Fin cfg4.N) :
    (dat4 (F := Ideal) V c).flushed 3 t = ((cfg4.win 3).blk t).view.read (Elt Ideal)
      (Cert.Gcn.actmm (V c (Pipeline.arrRef spec4 0)) (fun j => (V c (Pipeline.arrRef spec4 1) : S1x128.Idx → EReal) (ix2 (0 : Fin 1) j)) (V c (Pipeline.arrRef spec4 2))) :=
  flushed_of V c t _ (fun p q hr => pay_point (V c (Pipeline.arrRef spec4 0)) (V c (Pipeline.arrRef spec4 1)) (V c (Pipeline.arrRef spec4 2)) (iblk4 V c 0 t) (iblk4 V c 1 t) (iblk4 V c 2 t) p q ⟨t.val * 5000 + p.val, hr⟩
    (fun k => rows_at V c t p k hr) (fun k => bias_at V c t k) (fun k => weight_at V c t k q))

/-- An index of the result is in point `t`'s block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v68).slice (win4_3.rect t)).set ↔ _
  rw [View.set_slice_whole, Rect.mem_set_unit]
  exact Iff.rfl

/-- Row `r` is written by point `r / 5000`: the 20 row blocks tile the result. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_3 _, ?_⟩
  rw [mem_blk]
  obtain ⟨e00, e01, e10, e11, e20, e21, e30, e31⟩ := idx_facts ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 128 ≤ (i 1).val ∧ (i 1).val < win4_3.index _ (1 : Fin 2) * 128 + 128
    rw [e31]; omega

/-- THE RESULT ARRAY after the region, as one function of the arrays the region found. -/
theorem actmm_array (c : Dev nD) :
    (dat4 (F := Ideal) V c).arrAt 3 cfg4.N = Cert.Gcn.actmm (V c (Pipeline.arrRef spec4 0)) (fun j => (V c (Pipeline.arrRef spec4 1) : S1x128.Idx → EReal) (ix2 (0 : Fin 1) j)) (V c (Pipeline.arrRef spec4 2)) :=
  (dat4 (F := Ideal) V c).arrAt_eq_of_cover 3 (Cert.Gcn.actmm (V c (Pipeline.arrRef spec4 0)) (fun j => (V c (Pipeline.arrRef spec4 1) : S1x128.Idx → EReal) (ix2 (0 : Fin 1) j)) (V c (Pipeline.arrRef spec4 2)))
    (fun t _ => flushed_eq V c t) cover

end Cert.KernelIdeal.RegionAct4

end
-- ==== Proof.RegionBias.lean ====
/-
  The last layer's bias region: 20 points, point `t` adding the [1, 128] bias row to rows 5000·t … 5000·t + 4999 of the
  aggregated matrix and writing the same rows of the result.  So entry (r, j) of the result is s(r, j) + b(0, j), and
  the 20 row blocks tile the 100000 rows.
-/
import proofs.«167491_j8246337208594_1_alg».proof.Proof.RegionBlocks

noncomputable section

namespace Cert.KernelIdeal.RegionBias

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The body's arithmetic at `(p, q)`: the block's entry plus the row's entry at the column. -/
theorem pay_at (x : Vec Ideal S5000x128 .f32) (b : Vec Ideal S1x128 .f32) (p : Fin 5000) (q : Fin 128) :
    k5_pay1 (F := Ideal) x b (ix2 p q) = x (ix2 p q) + b (ix2 (0 : Fin 1) q) := by
  unfold k5_pay1
  simp only [shapeCast_self]
  show x (ix2 p q) + broadcastTo S5000x128 b broadcasts_S1x128_S5000x128 (ix2 p q) = _
  rw [RegionBlocks.rowBroadcast_at]

/-- The body's arithmetic on a block whose rows are rows of `A0` and whose bias row is `A1`'s, at `(p, q)`. -/
theorem pay_point (A0 : FVec Ideal Cert.Gcn.SNH .f32) (A1 : S1x128.Idx → EReal)
    (x : Vec Ideal S5000x128 .f32) (b : Vec Ideal S1x128 .f32) (p : Fin 5000) (q : Fin 128) (r : Fin 100000)
    (hx : x (ix2 p q) = A0 (ix2 r q)) (hb : b (ix2 (0 : Fin 1) q) = A1 (ix2 (0 : Fin 1) q)) :
    k5_pay1 (F := Ideal) x b (ix2 p q) = Cert.Gcn.bias A0 (fun j => A1 (ix2 (0 : Fin 1) j)) (ix2 r q) := by
  rw [pay_at, hx, hb]
  rfl

/-- The printed index maps over the grid: the row windows sit at block `t`, the bias row at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem t_lt (t : Fin cfg5.N) : t.val < 20 :=
  lt_of_lt_of_eq t.isLt N_5

/-- Window 0's block at point `t` holds rows 5000·t … 5000·t + 4999 of its array. -/
theorem rows_at (c : Dev nD) (t : Fin cfg5.N) (p : Fin 5000) (k : Fin 128) (h : t.val * 5000 + p.val < 100000) :
    iblk5 V c 0 t (ix2 p k) = V c (Pipeline.arrRef spec5 0) (ix2 (⟨t.val * 5000 + p.val, h⟩ : Fin 100000) k) := by
  obtain ⟨e00, e01, e10, e11, e20, e21⟩ := idx_facts t
  have hk := k.isLt
  unfold iblk5
  rw [View.read_apply]
  refine congrArg (V c (Pipeline.arrRef spec5 0)) ?_
  funext a; apply Fin.ext
  match a with
  | ⟨0, _⟩ => show win5_0.index t (0 : Fin 2) * 5000 + 1 * p.val = t.val * 5000 + p.val; omega
  | ⟨1, _⟩ => show win5_0.index t (1 : Fin 2) * 128 + 1 * k.val = k.val; omega

/-- Window 1's block at every point is its whole [1, 128] row. -/
theorem bias_at (c : Dev nD) (t : Fin cfg5.N) (q : Fin 128) :
    iblk5 V c 1 t (ix2 (0 : Fin 1) q) = V c (Pipeline.arrRef spec5 1) (ix2 (0 : Fin 1) q) := by
  obtain ⟨e00, e01, e10, e11, e20, e21⟩ := idx_facts t
  have hq := q.isLt
  unfold iblk5
  rw [View.read_apply]
  refine congrArg (V c (Pipeline.arrRef spec5 1)) ?_
  funext a; apply Fin.ext
  match a with
  | ⟨0, _⟩ => show win5_1.index t (0 : Fin 2) * 1 + 1 * (0 : Fin 1).val = (0 : Fin 1).val; omega
  | ⟨1, _⟩ => show win5_1.index t (1 : Fin 2) * 128 + 1 * q.val = q.val; omega

/-- The output block at point `t` sits at rows 5000·t … 5000·t + 4999 of the result. -/
theorem emb_out (t : Fin cfg5.N) (p : Fin 5000) (q : Fin 128) (h : t.val * 5000 + p.val < 100000) :
    ((cfg5.win 2).blk t).view.emb (ix2 p q) = ix2 (⟨t.val * 5000 + p.val, h⟩ : Fin 100000) q := by
  obtain ⟨e00, e01, e10, e11, e20, e21⟩ := idx_facts t
  have hq := q.isLt
  funext a; apply Fin.ext
  match a with
  | ⟨0, _⟩ => show win5_2.index t (0 : Fin 2) * 5000 + 1 * p.val = t.val * 5000 + p.val; omega
  | ⟨1, _⟩ => show win5_2.index t (1 : Fin 2) * 128 + 1 * q.val = q.val; omega

/-- WHAT POINT `t` WRITES BACK is block `t` of that array. -/
theorem flushed_eq (c : Dev nD) (t : Fin cfg5.N) :
    (dat5 (F := Ideal) V c).flushed 2 t = ((cfg5.win 2).blk t).view.read (Elt Ideal)
      (Cert.Gcn.bias (V c (Pipeline.arrRef spec5 0)) (fun j => (V c (Pipeline.arrRef spec5 1) : S1x128.Idx → EReal) (ix2 (0 : Fin 1) j))) := by
  show (cfg5.win 2).cut (grid5.coords t) ((dat5 (F := Ideal) V c).after 2 t) = _
  rw [after5_2]
  unfold out5_2
  rw [View.canon_unit_zero RegionBlocks.hz]
  simp only [View.ld_unit_zero (S := S5000x128) RegionBlocks.hz, View.ld_unit_zero (S := S1x128) RegionBlocks.hz]
  have ht := t_lt t
  funext j
  obtain ⟨p, q, rfl⟩ : ∃ (p : Fin 5000) (q : Fin 128), j = ix2 p q := ⟨j 0, j 1, eq_ix2 j⟩
  have hp := p.isLt
  have hr : t.val * 5000 + p.val < 100000 := by omega
  rw [View.read_apply]
  refine Eq.trans ?_ (congrArg (Cert.Gcn.bias (V c (Pipeline.arrRef spec5 0)) (fun j => (V c (Pipeline.arrRef spec5 1) : S1x128.Idx → EReal) (ix2 (0 : Fin 1) j))) (emb_out t p q hr).symm)
  exact pay_point (V c (Pipeline.arrRef spec5 0)) (V c (Pipeline.arrRef spec5 1)) (iblk5 V c 0 t) (iblk5 V c 1 t) p q ⟨t.val * 5000 + p.val, hr⟩
    (rows_at V c t p q hr) (bias_at V c t q)

/-- An index of the result is in point `t`'s block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v83).slice (win5_2.rect t)).set ↔ _
  rw [View.set_slice_whole, Rect.mem_set_unit]
  exact Iff.rfl

/-- Row `r` is written by point `r / 5000`: the 20 row blocks tile the result. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_2 _, ?_⟩
  rw [mem_blk]
  obtain ⟨e00, e01, e10, e11, e20, e21⟩ := idx_facts ⟨(i 0).val / 5000, by rw [hN]; omega⟩
  intro a
  match a with
  | ⟨0, _⟩ =>
    show win5_2.index _ (0 : Fin 2) * 5000 ≤ (i 0).val ∧ (i 0).val < win5_2.index _ (0 : Fin 2) * 5000 + 5000
    rw [e20]; show (i 0).val / 5000 * 5000 ≤ (i 0).val ∧ (i 0).val < (i 0).val / 5000 * 5000 + 5000; omega
  | ⟨1, _⟩ =>
    show win5_2.index _ (1 : Fin 2) * 128 ≤ (i 1).val ∧ (i 1).val < win5_2.index _ (1 : Fin 2) * 128 + 128
    rw [e21]; omega

/-- THE RESULT ARRAY after the region, as one function of the arrays the region found. -/
theorem bias_array (c : Dev nD) :
    (dat5 (F := Ideal) V c).arrAt 2 cfg5.N = Cert.Gcn.bias (V c (Pipeline.arrRef spec5 0)) (fun j => (V c (Pipeline.arrRef spec5 1) : S1x128.Idx → EReal) (ix2 (0 : Fin 1) j)) :=
  (dat5 (F := Ideal) V c).arrAt_eq_of_cover 2 (Cert.Gcn.bias (V c (Pipeline.arrRef spec5 0)) (fun j => (V c (Pipeline.arrRef spec5 1) : S1x128.Idx → EReal) (ix2 (0 : Fin 1) j)))
    (fun t _ => flushed_eq V c t) cover

end Cert.KernelIdeal.RegionBias

end
-- ==== Proof.KChain.lean ====
/-
  The kernel's result, stage by stage.  Each region's output array is its dense stage (Proof/Spec.lean) of the
  arrays the region finds at its entry; each of those is either an argument as launched, a bias vector as one row,
  a half of the projection weight, what the preceding region left, or the sparse product (Proof/KHost.lean) of
  what the preceding region left.  Chaining the six regions gives the result buffer at the network's output
  `Cert.Gcn.gOut` of the fifteen arguments.
-/
import proofs.«167491_j8246337208594_1_alg».proof.Proof.GcnDefs
import proofs.«167491_j8246337208594_1_alg».proof.Proof.RegionEnc
import proofs.«167491_j8246337208594_1_alg».proof.Proof.RegionProj
import proofs.«167491_j8246337208594_1_alg».proof.Proof.RegionMm
import proofs.«167491_j8246337208594_1_alg».proof.Proof.RegionAct3
import proofs.«167491_j8246337208594_1_alg».proof.Proof.RegionAct4
import proofs.«167491_j8246337208594_1_alg».proof.Proof.RegionBias

set_option maxRecDepth 16384

noncomputable section

namespace Cert.KernelIdeal.Chain

open Cert.KernelIdeal Cert.KernelIdeal.Gen Cert.Gcn
open Idealize.ShloMosaic Idealize.ShloMosaic.TcCoe Idealize.SL.Sem Idealize.ShloMosaic.ValueIdx
open Cert.KernelIdeal.Host (spmm)

variable (m : (ℓ : Loc nD τ sig) → Buf (Elt Ideal) ℓ) (ρ : Dev nD → PrngReg)

/-- Region 0 leaves the encoded external features. -/
theorem feat_eq (c : Dev nD) : W4 m ρ c (Proc.devRef .tc main_v33) = gFeat (m ((c : Thread nD τ).loc main_arg1)) (m ((c : Thread nD τ).loc main_arg3)) (m ((c : Thread nD τ).loc main_arg4)) (m ((c : Thread nD τ).loc main_arg5)) (m ((c : Thread nD τ).loc main_arg6)) := by
  refine (W4_arr m ρ c 5).trans ?_
  rw [RegionEnc.enc_array]
  have e0 : V3 m ρ c (Pipeline.arrRef spec0 0) = (m ((c : Thread nD τ).loc main_arg1)) := Fold.arg1_at3 m ρ c
  have e1 : V3 m ρ c (Pipeline.arrRef spec0 1) = (m ((c : Thread nD τ).loc main_arg3)) := Fold.arg3_at3 m ρ c
  have e2 : (fun j : Fin 128 => V3 m ρ c (Pipeline.arrRef spec0 2) (ix2 (0 : Fin 1) j)) = vec (m ((c : Thread nD τ).loc main_arg4)) := funext fun j => Host.row_enc_b m ρ c j
  have e3 : (fun j : Fin 128 => V3 m ρ c (Pipeline.arrRef spec0 3) (ix2 (0 : Fin 1) j)) = vec (m ((c : Thread nD τ).loc main_arg5)) := funext fun j => Host.row_ln_g m ρ c j
  have e4 : (fun j : Fin 128 => V3 m ρ c (Pipeline.arrRef spec0 4) (ix2 (0 : Fin 1) j)) = vec (m ((c : Thread nD τ).loc main_arg6)) := funext fun j => Host.row_ln_b m ρ c j
  exact congr (congr (congr (congr (congrArg enc e0) e1) e2) e3) e4

/-- Region 1 leaves the fused node features. -/
theorem x_eq (c : Dev nD) : W6 m ρ c (Proc.devRef .tc main_v37) = gX (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ?_
  rw [RegionProj.proj_array]
  have e0 : V5 m ρ c (Pipeline.arrRef spec1 0) = (m ((c : Thread nD τ).loc main_arg2)) := Host.emb_at5 m ρ c
  have e1 : V5 m ρ c (Pipeline.arrRef spec1 1) = gFeat (m ((c : Thread nD τ).loc main_arg1)) (m ((c : Thread nD τ).loc main_arg3)) (m ((c : Thread nD τ).loc main_arg4)) (m ((c : Thread nD τ).loc main_arg5)) (m ((c : Thread nD τ).loc main_arg6)) := (Host.feat_at5 m ρ c).trans (feat_eq m ρ c)
  have e2 : (fun k j : Fin 128 => V5 m ρ c (Pipeline.arrRef spec1 2) (ix2 k j)) = top (m ((c : Thread nD τ).loc main_arg7)) := funext fun k => funext fun j => Host.proj_top m ρ c k j
  have e3 : (fun k j : Fin 128 => V5 m ρ c (Pipeline.arrRef spec1 3) (ix2 k j)) = bot (m ((c : Thread nD τ).loc main_arg7)) := funext fun k => funext fun j => Host.proj_bot m ρ c k j
  have e4 : (fun j : Fin 128 => V5 m ρ c (Pipeline.arrRef spec1 4) (ix2 (0 : Fin 1) j)) = vec (m ((c : Thread nD τ).loc main_arg8)) := funext fun j => Host.row_proj_b m ρ c j
  exact congr (congr (congr (congr (congrArg proj e0) e1) e2) e3) e4

/-- Region 2 leaves layer 0's dense product. -/
theorem h0_eq (c : Dev nD) : W7 m ρ c (Proc.devRef .tc main_v38) = gH0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 2).trans ?_
  rw [RegionMm.mm_array]
  have e0 : V6 m ρ c (Pipeline.arrRef spec2 0) = gX (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := x_eq m ρ c
  have e1 : V6 m ρ c (Pipeline.arrRef spec2 1) = (m ((c : Thread nD τ).loc main_arg9)) := Fold.arg9_at6 m ρ c
  exact congr (congrArg mm e0) e1

/-- Region 3 leaves layer 1's dense product of layer 0 aggregated, biased and clamped. -/
theorem h1_eq (c : Dev nD) : W9 m ρ c (Proc.devRef .tc main_v53) = gH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 3).trans ?_
  rw [RegionAct3.actmm_array]
  have e0 : V8 m ρ c (Pipeline.arrRef spec3 0) = spmm (F := Ideal) (m ((c : Thread nD τ).loc main_arg0)) (gH0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
    (Host.ker_spmm0 m ρ c).trans (congrArg (spmm (F := Ideal) (m ((c : Thread nD τ).loc main_arg0))) (h0_eq m ρ c))
  have e1 : (fun j : Fin 128 => V8 m ρ c (Pipeline.arrRef spec3 1) (ix2 (0 : Fin 1) j)) = vec (m ((c : Thread nD τ).loc main_arg10)) := funext fun j => Host.row_b0 m ρ c j
  have e2 : V8 m ρ c (Pipeline.arrRef spec3 2) = (m ((c : Thread nD τ).loc main_arg11)) := Host.w1_at8 m ρ c
  exact congr (congr (congrArg actmm e0) e1) e2

/-- Region 4 leaves layer 2's dense product. -/
theorem h2_eq (c : Dev nD) : W11 m ρ c (Proc.devRef .tc main_v68) = gH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W11_arr m ρ c 3).trans ?_
  rw [RegionAct4.actmm_array]
  have e0 : V10 m ρ c (Pipeline.arrRef spec4 0) = spmm (F := Ideal) (m ((c : Thread nD τ).loc main_arg0)) (gH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
    (Host.ker_spmm1 m ρ c).trans (congrArg (spmm (F := Ideal) (m ((c : Thread nD τ).loc main_arg0))) (h1_eq m ρ c))
  have e1 : (fun j : Fin 128 => V10 m ρ c (Pipeline.arrRef spec4 1) (ix2 (0 : Fin 1) j)) = vec (m ((c : Thread nD τ).loc main_arg12)) := funext fun j => Host.row_b1 m ρ c j
  have e2 : V10 m ρ c (Pipeline.arrRef spec4 2) = (m ((c : Thread nD τ).loc main_arg13)) := Host.w2_at10 m ρ c
  exact congr (congr (congrArg actmm e0) e1) e2

/-- Region 5 leaves the network's output in the result buffer. -/
theorem out_eq (c : Dev nD) : W13 m ρ c (Proc.devRef .tc main_v83) = gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W13_arr m ρ c 2).trans ?_
  rw [RegionBias.bias_array]
  have e0 : V12 m ρ c (Pipeline.arrRef spec5 0) = spmm (F := Ideal) (m ((c : Thread nD τ).loc main_arg0)) (gH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
    (Host.ker_spmm2 m ρ c).trans (congrArg (spmm (F := Ideal) (m ((c : Thread nD τ).loc main_arg0))) (h2_eq m ρ c))
  have e1 : (fun j : Fin 128 => V12 m ρ c (Pipeline.arrRef spec5 1) (ix2 (0 : Fin 1) j)) = vec (m ((c : Thread nD τ).loc main_arg14)) := funext fun j => Host.row_b2 m ρ c j
  exact congr (congrArg bias e0) e1

end Cert.KernelIdeal.Chain

end
-- ==== Proof.RefStage0.lean ====
/-
  The reference's encoder, read as the specification's `enc`.  Row by row: the linear map of the external features
  plus its bias; the mean of the row (its sum, started from the zero word, divided by the word of 128); the centred
  row; the mean of the squared centred row; the reciprocal square root of that variance shifted by the small word;
  the gain, the shift, and the clamp below at the zero word.  The program keeps the mean and the variance as columns
  of one entry per row and repeats them along the row; each such column is read at its row.
-/
import proofs.«167491_j8246337208594_1_alg».proof.Proof.RefRead
import proofs.«167491_j8246337208594_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

/-- The left operand of the product is read at the row and the summation variable. -/
theorem lidx_v30_eq (p : Fin 100000) (q : Fin 128) (k : Fin 768) : lidx_main_v30 (ix2 p q) k = ix2 p k :=
  funext fun a => Fin.ext (by match a with | ⟨0, _⟩ => rfl | ⟨1, _⟩ => rfl)

/-- The weight is read at the summation variable and the column. -/
theorem ridx_v30_eq (p : Fin 100000) (q : Fin 128) (k : Fin 768) : ridx_main_v30 (ix2 p q) k = ix2 k q :=
  funext fun a => Fin.ext (by match a with | ⟨0, _⟩ => rfl | ⟨1, _⟩ => rfl)

/-- A vector of 128 entries, laid out as a row and then repeated down the rows, is read at the column. -/
theorem idx_v31_v32_eq (p : Fin 100000) (q : Fin 128) : idx_main_v31 (idx_main_v32 (ix2 p q)) = ix1 q :=
  funext fun a => Fin.ext (by match a with | ⟨0, _⟩ => rfl)
theorem idx_v52_v53_eq (p : Fin 100000) (q : Fin 128) : idx_main_v52 (idx_main_v53 (ix2 p q)) = ix1 q :=
  funext fun a => Fin.ext (by match a with | ⟨0, _⟩ => rfl)
theorem idx_v55_v56_eq (p : Fin 100000) (q : Fin 128) : idx_main_v55 (idx_main_v56 (ix2 p q)) = ix1 q :=
  funext fun a => Fin.ext (by match a with | ⟨0, _⟩ => rfl)

/-- A row sum kept as a column of one entry reads the row's entries. -/
theorem idx_v34_v35_eq (p : Fin 100000) (z : Fin 1) (k : Fin 128) : idx_main_v34 (idx_main_v35 (ix2 p z)) k = ix2 p k :=
  funext fun a => Fin.ext (by match a with | ⟨0, _⟩ => rfl | ⟨1, _⟩ => rfl)
theorem idx_v41_v42_eq (p : Fin 100000) (z : Fin 1) (k : Fin 128) : idx_main_v41 (idx_main_v42 (ix2 p z)) k = ix2 p k :=
  funext fun a => Fin.ext (by match a with | ⟨0, _⟩ => rfl | ⟨1, _⟩ => rfl)

/-- A column of one entry per row, repeated along the row, is read at the row. -/
theorem idx_v38_eq (p : Fin 100000) (q : Fin 128) : idx_main_v38 (ix2 p q) = ix2 p (⟨0, Nat.one_pos⟩ : Fin 1) :=
  funext fun a => Fin.ext (by match a with | ⟨0, _⟩ => rfl | ⟨1, _⟩ => rfl)
theorem idx_v45_eq (p : Fin 100000) (q : Fin 128) : idx_main_v45 (ix2 p q) = ix2 p (⟨0, Nat.one_pos⟩ : Fin 1) :=
  funext fun a => Fin.ext (by match a with | ⟨0, _⟩ => rfl | ⟨1, _⟩ => rfl)
theorem idx_v50_eq (p : Fin 100000) (q : Fin 128) : idx_main_v50 (ix2 p q) = ix2 p (⟨0, Nat.one_pos⟩ : Fin 1) :=
  funext fun a => Fin.ext (by match a with | ⟨0, _⟩ => rfl | ⟨1, _⟩ => rfl)

/-- %30..%33: the linear map plus its bias at row p, column j. -/
theorem lin_at (x1 : (⟨S100000x768, .f32⟩ : BufTy).Contents (Elt Ideal)) (x3 : (⟨S768x128, .f32⟩ : BufTy).Contents (Elt Ideal))
    (x4 : (⟨S128, .f32⟩ : BufTy).Contents (Elt Ideal)) (p : Fin 100000) (j : Fin 128) :
    val_main_v33 (F := Ideal) x1 x3 x4 (ix2 p j) = Cert.Gcn.lin x1 x3 (fun j => x4 (ix1 j)) p j := by
  rw [val_main_v33_apply, val_main_v30_apply, val_main_v32_apply, val_main_v31_apply, idx_v31_v32_eq]
  simp only [lidx_v30_eq, ridx_v30_eq]
  rfl

/-- %34..%37: the mean of row p. -/
theorem mean_at (x1 : (⟨S100000x768, .f32⟩ : BufTy).Contents (Elt Ideal)) (x3 : (⟨S768x128, .f32⟩ : BufTy).Contents (Elt Ideal))
    (x4 : (⟨S128, .f32⟩ : BufTy).Contents (Elt Ideal)) (p : Fin 100000) (z : Fin 1) :
    val_main_v37 (F := Ideal) x1 x3 x4 (ix2 p z) = Cert.Gcn.rowMean (Cert.Gcn.lin x1 x3 (fun j => x4 (ix1 j)) p) := by
  rw [val_main_v37_apply, val_main_v35_apply, val_main_v34_apply, val_main_v36_apply, val_main_cst_7_apply,
    val_main_cst_6_apply]
  simp only [idx_v34_v35_eq, lin_at, Ideal.ofBits_def, Ideal.ofBits_zero_f32, zero_add, Ideal.hostDivf_def]
  rfl

/-- %38, %39: the centred entry at row p, column j. -/
theorem cent_at (x1 : (⟨S100000x768, .f32⟩ : BufTy).Contents (Elt Ideal)) (x3 : (⟨S768x128, .f32⟩ : BufTy).Contents (Elt Ideal))
    (x4 : (⟨S128, .f32⟩ : BufTy).Contents (Elt Ideal)) (p : Fin 100000) (j : Fin 128) :
    val_main_v39 (F := Ideal) x1 x3 x4 (ix2 p j)
      = Cert.Gcn.lin x1 x3 (fun j => x4 (ix1 j)) p j - Cert.Gcn.rowMean (Cert.Gcn.lin x1 x3 (fun j => x4 (ix1 j)) p) := by
  rw [val_main_v39_apply, val_main_v38_apply, idx_v38_eq, mean_at, lin_at]
  rfl

/-- %45, %46: the same centred entry, computed a second time by the program. -/
theorem cent2_at (x1 : (⟨S100000x768, .f32⟩ : BufTy).Contents (Elt Ideal)) (x3 : (⟨S768x128, .f32⟩ : BufTy).Contents (Elt Ideal))
    (x4 : (⟨S128, .f32⟩ : BufTy).Contents (Elt Ideal)) (p : Fin 100000) (j : Fin 128) :
    val_main_v46 (F := Ideal) x1 x3 x4 (ix2 p j)
      = Cert.Gcn.lin x1 x3 (fun j => x4 (ix1 j)) p j - Cert.Gcn.rowMean (Cert.Gcn.lin x1 x3 (fun j => x4 (ix1 j)) p) := by
  rw [val_main_v46_apply, val_main_v45_apply, idx_v45_eq, mean_at, lin_at]
  rfl

/-- %40..%44: the variance of row p: the mean of the squared centred entries. -/
theorem var_at (x1 : (⟨S100000x768, .f32⟩ : BufTy).Contents (Elt Ideal)) (x3 : (⟨S768x128, .f32⟩ : BufTy).Contents (Elt Ideal))
    (x4 : (⟨S128, .f32⟩ : BufTy).Contents (Elt Ideal)) (p : Fin 100000) (z : Fin 1) :
    val_main_v44 (F := Ideal) x1 x3 x4 (ix2 p z)
      = Cert.Gcn.rowMean (fun j => (Cert.Gcn.lin x1 x3 (fun j => x4 (ix1 j)) p j - Cert.Gcn.rowMean (Cert.Gcn.lin x1 x3 (fun j => x4 (ix1 j)) p))
          * (Cert.Gcn.lin x1 x3 (fun j => x4 (ix1 j)) p j - Cert.Gcn.rowMean (Cert.Gcn.lin x1 x3 (fun j => x4 (ix1 j)) p))) := by
  rw [val_main_v44_apply, val_main_v42_apply, val_main_v41_apply, val_main_v43_apply, val_main_cst_9_apply,
    val_main_cst_8_apply]
  simp only [idx_v41_v42_eq, val_main_v40_apply, cent_at, Ideal.ofBits_def, Ideal.ofBits_zero_f32, zero_add,
    Ideal.hostDivf_def, Ideal.mulf_def]
  rfl

/-- %47..%49: the reciprocal square root of the shifted variance of row p. -/
theorem rstd_at (x1 : (⟨S100000x768, .f32⟩ : BufTy).Contents (Elt Ideal)) (x3 : (⟨S768x128, .f32⟩ : BufTy).Contents (Elt Ideal))
    (x4 : (⟨S128, .f32⟩ : BufTy).Contents (Elt Ideal)) (p : Fin 100000) (z : Fin 1) :
    val_main_v49 (F := Ideal) x1 x3 x4 (ix2 p z)
      = Ideal.rsqrt (Cert.Gcn.rowMean (fun j => (Cert.Gcn.lin x1 x3 (fun j => x4 (ix1 j)) p j - Cert.Gcn.rowMean (Cert.Gcn.lin x1 x3 (fun j => x4 (ix1 j)) p))
          * (Cert.Gcn.lin x1 x3 (fun j => x4 (ix1 j)) p j - Cert.Gcn.rowMean (Cert.Gcn.lin x1 x3 (fun j => x4 (ix1 j)) p))) + Cert.Gcn.eps32) := by
  rw [val_main_v49_apply, val_main_v48_apply, var_at, val_main_v47_apply, val_main_cst_10_apply]
  rfl

/-- %30..%58: the encoder is `enc`. -/
theorem stage_enc (x1 : (⟨S100000x768, .f32⟩ : BufTy).Contents (Elt Ideal)) (x3 : (⟨S768x128, .f32⟩ : BufTy).Contents (Elt Ideal))
    (x4 : (⟨S128, .f32⟩ : BufTy).Contents (Elt Ideal)) (x5 : (⟨S128, .f32⟩ : BufTy).Contents (Elt Ideal)) (x6 : (⟨S128, .f32⟩ : BufTy).Contents (Elt Ideal)) :
    val_main_v58 (F := Ideal) x1 x3 x4 x5 x6
      = Cert.Gcn.enc x1 x3 (fun j => x4 (ix1 j)) (fun j => x5 (ix1 j)) (fun j => x6 (ix1 j)) := by
  funext i
  obtain ⟨p, q, rfl⟩ : ∃ (p : Fin 100000) (q : Fin 128), i = ix2 p q := ⟨i 0, i 1, eq_ix2 i⟩
  rw [val_main_v58_apply, val_main_v57_apply, val_main_v54_apply, val_main_v51_apply, cent2_at,
    val_main_v50_apply, idx_v50_eq, rstd_at, val_main_v53_apply, val_main_v52_apply, idx_v52_v53_eq,
    val_main_v56_apply, val_main_v55_apply, idx_v55_v56_eq, val_main_call1_v0_apply, val_main_call1_cst_apply]
  rfl

end Cert.ReferenceIdeal.Stages

end
-- ==== Proof.RefStage1.lean ====
/-
  The reference's fusion projection, read as the specification's `proj`.  The program joins the node embeddings and
  the encoded features side by side into 256 columns and multiplies by a weight of 256 rows; here the sum over the
  256 columns is split into the first 128 (the embeddings against the upper half of the weight) and the last 128
  (the encoded features against the lower half), which only regroups a finite sum.
-/
import proofs.«167491_j8246337208594_1_alg».proof.Proof.RefRead
import proofs.«167491_j8246337208594_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

/-- The joined array at a column below 128 is the first piece at that column. -/
theorem v59_left (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal)) (p : Fin 100000) (k : Fin 128) :
    val_main_v59 (F := Ideal) x1 x2 x3 x4 x5 x6 (ix2 p (⟨k.val, by omega⟩ : Fin 256)) = x2 (ix2 p k) := by
  unfold val_main_v59
  generalize val_main_v58 (F := Ideal) x1 x3 x4 x5 x6 = y
  exact concatenate_pair_apply_left (1 : Fin S100000x256.rank) x2 y concatenates_S100000x128_S100000x128_S100000x256_d1
    (ix2 p (⟨k.val, by omega⟩ : Fin 256)) rfl (ix2 p k) (fun b => by match b with | ⟨0, _⟩ => rfl | ⟨1, _⟩ => rfl)

/-- The joined array at column 128 + k is the second piece at column k. -/
theorem v59_right (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal)) (p : Fin 100000) (k : Fin 128) :
    val_main_v59 (F := Ideal) x1 x2 x3 x4 x5 x6 (ix2 p (⟨128 + k.val, by omega⟩ : Fin 256))
      = val_main_v58 (F := Ideal) x1 x3 x4 x5 x6 (ix2 p k) := by
  unfold val_main_v59
  generalize val_main_v58 (F := Ideal) x1 x3 x4 x5 x6 = y
  exact concatenate_pair_apply_right (1 : Fin S100000x256.rank) x2 y concatenates_S100000x128_S100000x128_S100000x256_d1
    (ix2 p (⟨128 + k.val, by omega⟩ : Fin 256)) rfl rfl (ix2 p k)
    (fun b hb => by match b, hb with | ⟨0, _⟩, _ => rfl | ⟨1, _⟩, hb => exact absurd rfl hb)
    (by show k.val + 128 = 128 + k.val; omega)

/-- A sum over 256 columns is the sum over the first 128 plus the sum over the last 128. -/
theorem sum_256_split (f : Fin 256 → EReal) :
    ∑ c : Fin 256, f c = (∑ k : Fin 128, f ⟨k.val, by omega⟩) + ∑ k : Fin 128, f ⟨128 + k.val, by omega⟩ :=
  Fin.sum_univ_add (a := 128) (b := 128) f

/-- The left operand of the product is read at the row and the summation variable. -/
theorem lidx_v60_eq (p : Fin 100000) (q : Fin 128) (c : Fin 256) : lidx_main_v60 (ix2 p q) c = ix2 p c :=
  funext fun a => Fin.ext (by match a with | ⟨0, _⟩ => rfl | ⟨1, _⟩ => rfl)

/-- The weight is read at the summation variable and the column. -/
theorem ridx_v60_eq (p : Fin 100000) (q : Fin 128) (c : Fin 256) : ridx_main_v60 (ix2 p q) c = ix2 c q :=
  funext fun a => Fin.ext (by match a with | ⟨0, _⟩ => rfl | ⟨1, _⟩ => rfl)

/-- The bias, laid out as a row and then repeated down the rows, is read at the column. -/
theorem idx_v61_v62_eq (p : Fin 100000) (q : Fin 128) : idx_main_v61 (idx_main_v62 (ix2 p q)) = ix1 q :=
  funext fun a => Fin.ext (by match a with | ⟨0, _⟩ => rfl)

/-- %59..%63: the product of the joined array with the stacked weight, plus the bias, is `proj`. -/
theorem stage_proj (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal))
    (x7 : (⟨S256x128, .f32⟩ : BufTy).Contents (Elt Ideal))
    (x8 : (⟨S128, .f32⟩ : BufTy).Contents (Elt Ideal)) :
    val_main_v63 (F := Ideal) x1 x2 x3 x4 x5 x6 x7 x8
      = Cert.Gcn.proj x2 (val_main_v58 (F := Ideal) x1 x3 x4 x5 x6)
          (fun k j => x7 (ix2 (⟨k.val, by omega⟩ : Fin 256) j)) (fun k j => x7 (ix2 (⟨128 + k.val, by omega⟩ : Fin 256) j))
          (fun j => x8 (ix1 j)) := by
  funext i
  obtain ⟨p, q, rfl⟩ : ∃ (p : Fin 100000) (q : Fin 128), i = ix2 p q := ⟨i 0, i 1, eq_ix2 i⟩
  rw [val_main_v63_apply, val_main_v60_apply, val_main_v62_apply, val_main_v61_apply, idx_v61_v62_eq]
  simp only [lidx_v60_eq, ridx_v60_eq]
  rw [sum_256_split]
  simp only [v59_left, v59_right]
  rfl

end Cert.ReferenceIdeal.Stages

end
-- ==== Proof.RefStage2.lean ====
/-
  The reference's first square product, read as the specification's `mm`: the element at row p, column q is the
  sum over the 128 columns k of the left operand at (p, k) times the weight at (k, q).
-/
import proofs.«167491_j8246337208594_1_alg».proof.Proof.RefRead
import proofs.«167491_j8246337208594_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

/-- The left operand of the product is read at the row and the summation variable. -/
theorem lidx_v64_eq (p : Fin 100000) (q k : Fin 128) : lidx_main_v64 (ix2 p q) k = ix2 p k :=
  funext fun a => Fin.ext (by match a with | ⟨0, _⟩ => rfl | ⟨1, _⟩ => rfl)

/-- The weight is read at the summation variable and the column. -/
theorem ridx_v64_eq (p : Fin 100000) (q k : Fin 128) : ridx_main_v64 (ix2 p q) k = ix2 k q :=
  funext fun a => Fin.ext (by match a with | ⟨0, _⟩ => rfl | ⟨1, _⟩ => rfl)

/-- %64: the product of the projected features with the first layer's weight is `mm`. -/
theorem stage_mm (x1 : (⟨S100000x768, .f32⟩ : BufTy).Contents (Elt Ideal)) (x2 : (⟨S100000x128, .f32⟩ : BufTy).Contents (Elt Ideal))
    (x3 : (⟨S768x128, .f32⟩ : BufTy).Contents (Elt Ideal)) (x4 x5 x6 : (⟨S128, .f32⟩ : BufTy).Contents (Elt Ideal))
    (x7 : (⟨S256x128, .f32⟩ : BufTy).Contents (Elt Ideal)) (x8 : (⟨S128, .f32⟩ : BufTy).Contents (Elt Ideal))
    (x9 : (⟨S128x128, .f32⟩ : BufTy).Contents (Elt Ideal)) :
    val_main_v64 (F := Ideal) x1 x2 x3 x4 x5 x6 x7 x8 x9
      = Cert.Gcn.mm (val_main_v63 (F := Ideal) x1 x2 x3 x4 x5 x6 x7 x8) x9 := by
  funext i
  obtain ⟨p, q, rfl⟩ : ∃ (p : Fin 100000) (q : Fin 128), i = ix2 p q := ⟨i 0, i 1, eq_ix2 i⟩
  rw [val_main_v64_apply]
  simp only [lidx_v64_eq, ridx_v64_eq]
  rfl

end Cert.ReferenceIdeal.Stages

end
-- ==== Proof.RefStage3.lean ====
/-
  The reference's first hidden layer after its aggregation, read as the specification's `actmm`: the layer's bias
  is added, the result is clamped below at the zero word, and the rows are multiplied by the next layer's weight.
-/
import proofs.«167491_j8246337208594_1_alg».proof.Proof.RefRead
import proofs.«167491_j8246337208594_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

/-- The left operand of the product is read at the row and the summation variable. -/
theorem lidx_v82_eq (p : Fin 100000) (q k : Fin 128) : lidx_main_v82 (ix2 p q) k = ix2 p k :=
  funext fun a => Fin.ext (by match a with | ⟨0, _⟩ => rfl | ⟨1, _⟩ => rfl)

/-- The weight is read at the summation variable and the column. -/
theorem ridx_v82_eq (p : Fin 100000) (q k : Fin 128) : ridx_main_v82 (ix2 p q) k = ix2 k q :=
  funext fun a => Fin.ext (by match a with | ⟨0, _⟩ => rfl | ⟨1, _⟩ => rfl)

/-- The bias, laid out as a row and then repeated down the rows, is read at the column. -/
theorem idx_v78_v79_eq (p : Fin 100000) (k : Fin 128) : idx_main_v78 (idx_main_v79 (ix2 p k)) = ix1 k :=
  funext fun a => Fin.ext (by match a with | ⟨0, _⟩ => rfl)

/-- The clamped, biased features at row p, column k. -/
theorem v81_at (x0 : (⟨S2x1600000, .i32⟩ : BufTy).Contents (Elt Ideal))
    (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal))
    (x7 : (⟨S256x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal)) (p : Fin 100000) (k : Fin 128) :
    val_main_v81 (F := Ideal) x0 x1 x2 x3 x4 x5 x6 x7 x8 x9 x10 (ix2 p k)
      = max (val_main_v77 (F := Ideal) x0 x1 x2 x3 x4 x5 x6 x7 x8 x9 (ix2 p k) + x10 (ix1 k)) Cert.Gcn.zero32 := by
  rw [val_main_v81_apply, val_main_v80_apply, val_main_v79_apply, val_main_v78_apply, idx_v78_v79_eq,
    val_main_call2_v0_apply, val_main_call2_cst_apply]
  rfl

/-- %78..%82: bias, clamp at zero, product with the next weight is `actmm`. -/
theorem stage_actmm_v82 (x0 : (⟨S2x1600000, .i32⟩ : BufTy).Contents (Elt Ideal))
    (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal))
    (x7 : (⟨S256x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal)) :
    val_main_v82 (F := Ideal) x0 x1 x2 x3 x4 x5 x6 x7 x8 x9 x10 x11
      = Cert.Gcn.actmm (val_main_v77 (F := Ideal) x0 x1 x2 x3 x4 x5 x6 x7 x8 x9) (fun j => x10 (ix1 j)) x11 := by
  funext i
  obtain ⟨p, q, rfl⟩ : ∃ (p : Fin 100000) (q : Fin 128), i = ix2 p q := ⟨i 0, i 1, eq_ix2 i⟩
  rw [val_main_v82_apply]
  simp only [lidx_v82_eq, ridx_v82_eq, v81_at]
  rfl

end Cert.ReferenceIdeal.Stages

end
-- ==== Proof.RefStage4.lean ====
/-
  The reference's second hidden layer after its aggregation, read as the specification's `actmm`: the layer's bias
  is added, the result is clamped below at the zero word, and the rows are multiplied by the next layer's weight.
-/
import proofs.«167491_j8246337208594_1_alg».proof.Proof.RefRead
import proofs.«167491_j8246337208594_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

/-- The left operand of the product is read at the row and the summation variable. -/
theorem lidx_v100_eq (p : Fin 100000) (q k : Fin 128) : lidx_main_v100 (ix2 p q) k = ix2 p k :=
  funext fun a => Fin.ext (by match a with | ⟨0, _⟩ => rfl | ⟨1, _⟩ => rfl)

/-- The weight is read at the summation variable and the column. -/
theorem ridx_v100_eq (p : Fin 100000) (q k : Fin 128) : ridx_main_v100 (ix2 p q) k = ix2 k q :=
  funext fun a => Fin.ext (by match a with | ⟨0, _⟩ => rfl | ⟨1, _⟩ => rfl)

/-- The bias, laid out as a row and then repeated down the rows, is read at the column. -/
theorem idx_v96_v97_eq (p : Fin 100000) (k : Fin 128) : idx_main_v96 (idx_main_v97 (ix2 p k)) = ix1 k :=
  funext fun a => Fin.ext (by match a with | ⟨0, _⟩ => rfl)

/-- The clamped, biased features at row p, column k. -/
theorem v99_at (x0 : (⟨S2x1600000, .i32⟩ : BufTy).Contents (Elt Ideal))
    (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal))
    (x7 : (⟨S256x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 : (⟨S128, .f32⟩ : BufTy).Contents (Elt Ideal)) (p : Fin 100000) (k : Fin 128) :
    val_main_v99 (F := Ideal) x0 x1 x2 x3 x4 x5 x6 x7 x8 x9 x10 x11 x12 (ix2 p k)
      = max (val_main_v95 (F := Ideal) x0 x1 x2 x3 x4 x5 x6 x7 x8 x9 x10 x11 (ix2 p k) + x12 (ix1 k)) Cert.Gcn.zero32 := by
  rw [val_main_v99_apply, val_main_v98_apply, val_main_v97_apply, val_main_v96_apply, idx_v96_v97_eq,
    val_main_call3_v0_apply, val_main_call3_cst_apply]
  rfl

/-- %96..%100: bias, clamp at zero, product with the next weight is `actmm`. -/
theorem stage_actmm_v100 (x0 : (⟨S2x1600000, .i32⟩ : BufTy).Contents (Elt Ideal))
    (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal))
    (x7 : (⟨S256x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 : (⟨S128, .f32⟩ : BufTy).Contents (Elt Ideal))
    (x13 : (⟨S128x128, .f32⟩ : BufTy).Contents (Elt Ideal)) :
    val_main_v100 (F := Ideal) x0 x1 x2 x3 x4 x5 x6 x7 x8 x9 x10 x11 x12 x13
      = Cert.Gcn.actmm (val_main_v95 (F := Ideal) x0 x1 x2 x3 x4 x5 x6 x7 x8 x9 x10 x11) (fun j => x12 (ix1 j)) x13 := by
  funext i
  obtain ⟨p, q, rfl⟩ : ∃ (p : Fin 100000) (q : Fin 128), i = ix2 p q := ⟨i 0, i 1, eq_ix2 i⟩
  rw [val_main_v100_apply]
  simp only [lidx_v100_eq, ridx_v100_eq, v99_at]
  rfl

end Cert.ReferenceIdeal.Stages

end
-- ==== Proof.RefStage5.lean ====
/-
  The reference's last operation, read as the specification's `bias`: the aggregated features plus the last
  layer's bias, the bias being a vector of 128 entries repeated along every row.
-/
import proofs.«167491_j8246337208594_1_alg».proof.Proof.RefRead
import proofs.«167491_j8246337208594_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx
open scoped BigOperators

/-- The bias, laid out as a row and then repeated down the rows, is read at the column. -/
theorem idx_v114_v115_eq (p : Fin 100000) (q : Fin 128) : idx_main_v114 (idx_main_v115 (ix2 p q)) = ix1 q :=
  funext fun a => Fin.ext (by match a with | ⟨0, _⟩ => rfl)

/-- %114..%116: the last layer's bias added to the aggregated features is `bias`. -/
theorem stage_bias (x0 : (⟨S2x1600000, .i32⟩ : BufTy).Contents (Elt Ideal))
    (x1 : (⟨S100000x768, .f32⟩ : BufTy).Contents (Elt Ideal))
    (x2 : (⟨S100000x128, .f32⟩ : BufTy).Contents (Elt Ideal))
    (x3 : (⟨S768x128, .f32⟩ : BufTy).Contents (Elt Ideal))
    (x4 : (⟨S128, .f32⟩ : BufTy).Contents (Elt Ideal))
    (x5 : (⟨S128, .f32⟩ : BufTy).Contents (Elt Ideal))
    (x6 : (⟨S128, .f32⟩ : BufTy).Contents (Elt Ideal))
    (x7 : (⟨S256x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 : (⟨S128, .f32⟩ : BufTy).Contents (Elt Ideal))
    (x13 : (⟨S128x128, .f32⟩ : BufTy).Contents (Elt Ideal))
    (x14 : (⟨S128, .f32⟩ : BufTy).Contents (Elt Ideal)) :
    val_main_v116 (F := Ideal) x0 x1 x2 x3 x4 x5 x6 x7 x8 x9 x10 x11 x12 x13 x14
      = Cert.Gcn.bias (val_main_v113 (F := Ideal) x0 x1 x2 x3 x4 x5 x6 x7 x8 x9 x10 x11 x12 x13) (fun j => x14 (ix1 j)) := by
  funext i
  obtain ⟨p, q, rfl⟩ : ∃ (p : Fin 100000) (q : Fin 128), i = ix2 p q := ⟨i 0, i 1, eq_ix2 i⟩
  rw [val_main_v116_apply, val_main_v115_apply, val_main_v114_apply, idx_v114_v115_eq]
  rfl

end Cert.ReferenceIdeal.Stages

end
-- ==== Proof.RefTotal.lean ====
/-
  The reference's result is the network's output: its dense stages are the specification's (Proof/RefStage0 … 5),
  its three aggregations the sparse product (Proof/KHost.lean), composed in the program's order.
-/
import proofs.«167491_j8246337208594_1_alg».proof.Proof.GcnDefs
import proofs.«167491_j8246337208594_1_alg».proof.Proof.RefStage0
import proofs.«167491_j8246337208594_1_alg».proof.Proof.RefStage1
import proofs.«167491_j8246337208594_1_alg».proof.Proof.RefStage2
import proofs.«167491_j8246337208594_1_alg».proof.Proof.RefStage3
import proofs.«167491_j8246337208594_1_alg».proof.Proof.RefStage4
import proofs.«167491_j8246337208594_1_alg».proof.Proof.RefStage5

noncomputable section

namespace Cert.ReferenceIdeal.Total

open Idealize.ShloMosaic Idealize.ShloMosaic.ValueIdx Cert.Gcn
open Cert.ReferenceIdeal.ReadP Cert.ReferenceIdeal.Stages
open Cert.KernelIdeal.Host (spmm ref_spmm0 ref_spmm1 ref_spmm2)

variable (x0 : (⟨Cert.ReferenceIdeal.S2x1600000, .i32⟩ : BufTy).Contents (Elt Ideal)) (x1 : (⟨Cert.ReferenceIdeal.S100000x768, .f32⟩ : BufTy).Contents (Elt Ideal)) (x2 : (⟨Cert.ReferenceIdeal.S100000x128, .f32⟩ : BufTy).Contents (Elt Ideal)) (x3 : (⟨Cert.ReferenceIdeal.S768x128, .f32⟩ : BufTy).Contents (Elt Ideal)) (x4 x5 x6 : (⟨Cert.ReferenceIdeal.S128, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128x128, .f32⟩ : BufTy).Contents (Elt Ideal)) (x14 : (⟨Cert.ReferenceIdeal.S128, .f32⟩ : BufTy).Contents (Elt Ideal))

/-- The reference's composed term is the network's output. -/
theorem result_eq : val_main_v116 (F := Ideal) x0 x1 x2 x3 x4 x5 x6 x7 x8 x9 x10 x11 x12 x13 x14 = gOut x0 x1 x2 x3 x4 x5 x6 x7 x8 x9 x10 x11 x12 x13 x14 := by
  rw [stage_bias, ref_spmm2, stage_actmm_v100, ref_spmm1, stage_actmm_v82, ref_spmm0, stage_mm, stage_proj, stage_enc]
  rfl

end Cert.ReferenceIdeal.Total

end
-- ==== Proof.lean ====
/-
  Equivalence, over the extended reals, of a three-layer graph convolutional network written as six tiled kernels
  among host stretches, against its plain array program.

  Both programs build the normalised adjacency the same way (self loops appended to the edge list, degrees by
  scatter-add, the weight of an edge the product of its endpoints' reciprocal square-root degrees) and aggregate
  with the same gather–scale–scatter-add; these host parts are operation for operation the same terms.  The dense
  parts differ only in arrangement: the kernels work on row blocks (2000 rows for the encoder, 5000 elsewhere),
  narrow their matrix operands to bf16 (the identity on the extended reals), fuse a layer's bias and relu into the
  next layer's product, and multiply the concatenation [emb | feat] with the stacked projection weight as two
  products — a sum over 256 terms split into two sums of 128, which needs only that + on the extended reals is
  associative and commutative.  No law used here needs finiteness, so the precondition is never opened.

  The pieces: Proof/Spec.lean (the dense stages as whole-array functions), Proof/GcnDefs.lean (the network composed),
  Proof/KRun.lean (the kernel's run with its result named), Proof/KFold.lean and Proof/KHost.lean (the host
  stretches read back), Proof/Region*.lean (each region's output array is its dense stage of the arrays it finds),
  Proof/KChain.lean (the six regions chained), Proof/RefStage*.lean and Proof/RefTotal.lean (the reference's term is
  the same composition), Proof/RefRun.lean and Proof/RefRead.lean (the reference's run and its stages).
-/
import proofs.«167491_j8246337208594_1_alg».proof.Defs
import proofs.«167491_j8246337208594_1_alg».proof.Proof.Gen.Kernel
import proofs.«167491_j8246337208594_1_alg».proof.Proof.Gen.Kernel.Skeleton
import proofs.«167491_j8246337208594_1_alg».proof.Proof.Gen.Kernel.Launch
import proofs.«167491_j8246337208594_1_alg».proof.Proof.Gen.Kernel.Points
import proofs.«167491_j8246337208594_1_alg».proof.Proof.Gen.Kernel.Frame
import proofs.«167491_j8246337208594_1_alg».proof.Proof.Gen.KernelIdeal
import proofs.«167491_j8246337208594_1_alg».proof.Proof.Gen.KernelIdeal.Skeleton
import proofs.«167491_j8246337208594_1_alg».proof.Proof.Gen.KernelIdeal.Launch
import proofs.«167491_j8246337208594_1_alg».proof.Proof.Gen.KernelIdeal.Points
import proofs.«167491_j8246337208594_1_alg».proof.Proof.Gen.KernelIdeal.Frame
import proofs.«167491_j8246337208594_1_alg».proof.Proof.Gen.ReferenceIdeal
import proofs.«167491_j8246337208594_1_alg».proof.Proof.Gen.Pre_finite_inputs
import proofs.«167491_j8246337208594_1_alg».proof.Proof.KRun
import proofs.«167491_j8246337208594_1_alg».proof.Proof.KChain
import proofs.«167491_j8246337208594_1_alg».proof.Proof.RefTotal
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ
/-- The idealized kernel runs and keeps its arguments. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the network's output of the (agreeing) arguments in their result buffers. -/
theorem algebraic : Cert.algebraic_KernelIdeal_ReferenceIdeal := by
  intro m ρ m' ρ' _ hagree
  refine ⟨fun c => Cert.Gcn.gOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Chain.out_eq m ρ c), (h c).2⟩)
      (Cert.KernelIdeal.RunValue.run_result (F := Ideal) m ρ)
  · refine (θ_run Cert.ReferenceIdeal.defs _ _).mono (fun r h c => ⟨(h c).1.trans ?_, (h c).2⟩) (Cert.ReferenceIdeal.ValueP.run (F := Ideal) m' ρ')
    rw [Cert.ReferenceIdeal.ReadP.val_main_v116_eq, Cert.ReferenceIdeal.Total.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
